-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S100001x3 : Shape := ⟨2, ![100001, 3]⟩
abbrev S100001x1024 : Shape := ⟨2, ![100001, 1024]⟩
abbrev S100001x768 : Shape := ⟨2, ![100001, 768]⟩
abbrev S100001x2 : Shape := ⟨2, ![100001, 2]⟩
abbrev S128x1 : Shape := ⟨2, ![128, 1]⟩
abbrev S128 : Shape := ⟨1, ![128]⟩
abbrev S3072x2944 : Shape := ⟨2, ![3072, 2944]⟩
abbrev S3072x1024 : Shape := ⟨2, ![3072, 1024]⟩
abbrev S3072 : Shape := ⟨1, ![3072]⟩
abbrev S_ : Shape := ⟨0, ![]⟩

class Facts : Prop where
  bcast_S_S100001x1024 : S_.BroadcastsInDim S100001x1024 (![] : Fin 0 → Fin S100001x1024.rank)
  reducesTo_S100001x1024_S_d0_1 : S100001x1024.ReducesTo [0, 1] S_
  h_S_ : 0 < S_.numel
  bcast_S_S100001x768 : S_.BroadcastsInDim S100001x768 (![] : Fin 0 → Fin S100001x768.rank)
  reducesTo_S100001x768_S_d0_1 : S100001x768.ReducesTo [0, 1] S_
  bcast_S_S100001x2 : S_.BroadcastsInDim S100001x2 (![] : Fin 0 → Fin S100001x2.rank)
  reducesTo_S100001x2_S_d0_1 : S100001x2.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S3072x2944 : S_.BroadcastsInDim S3072x2944 (![] : Fin 0 → Fin S3072x2944.rank)
  reducesTo_S3072x2944_S_d0_1 : S3072x2944.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part2 {F : FTy → Type} [FloatOps F] (main_arg9 : FVec F S3072 .f32) (main_arg10 : FVec F S3072 .f32) (main_v33 : IVec S_ 1) : IVec S_ 1 :=
  let main_v34 : FVec F S3072 .f32 := Host.absf main_arg9
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S3072 .f32 := Host.absf main_arg10
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  main_v43

def fn_part1 {F : FTy → Type} [FloatOps F] (main_arg6 : FVec F S128 .f32) (main_arg7 : FVec F S3072x2944 .f32) (main_arg8 : FVec F S3072x1024 .f32) (main_arg9 : FVec F S3072 .f32) (main_arg10 : FVec F S3072 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3072x2944 .f32 := Host.absf main_arg7
  let main_cst_8 : FVec F S_ .f32 := constant S_ .f32 0x7F800000#32
  let main_v25 : FVec F S3072x2944 .f32 := broadcastInDim S3072x2944 ![] bcast_S_S3072x2944 main_cst_8
  let main_v26 : IVec S3072x2944 1 := cmpf .olt main_v24 main_v25
  let main_c_9 : IVec S_ 1 := constantI S_ 1 1#1
  let main_v27 : IVec S_ 1 := (fun x v => Host.reduce IntOp.andi x v reducesTo_S3072x2944_S_d0_1 h_S_) main_v26 main_c_9
  let main_v28 : IVec S_ 1 := andi main_v23 main_v27
  let main_v29 : FVec F S3072x1024 .f32 := Host.absf main_arg8
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg9 main_arg10 main_v33

def fn {F : FTy → Type} [FloatOps F] (main_arg0 : IVec S16384 32) (main_arg1 : IVec S100001x3 32) (main_arg2 : FVec F S100001x1024 .f32) (main_arg3 : FVec F S100001x768 .f32) (main_arg4 : FVec F S100001x2 .f32) (main_arg5 : FVec F S128x1 .f32) (main_arg6 : FVec F S128 .f32) (main_arg7 : FVec F S3072x2944 .f32) (main_arg8 : FVec F S3072x1024 .f32) (main_arg9 : FVec F S3072 .f32) (main_arg10 : FVec F S3072 .f32) : IVec S_ 1 :=
  let main_v0 : FVec F S100001x1024 .f32 := Host.absf main_arg2
  let main_cst : FVec F S_ .f32 := constant S_ .f32 0x7F800000#32
  let main_v1 : FVec F S100001x1024 .f32 := broadcastInDim S100001x1024 ![] bcast_S_S100001x1024 main_cst
  let main_v2 : IVec S100001x1024 1 := cmpf .olt main_v0 main_v1
  let main_c : IVec S_ 1 := constantI S_ 1 1#1
  let main_v3 : IVec S_ 1 := (fun x v => Host.reduce IntOp.andi x v reducesTo_S100001x1024_S_d0_1 h_S_) main_v2 main_c
  let main_v4 : FVec F S100001x768 .f32 := Host.absf main_arg3
  let main_cst_0 : FVec F S_ .f32 := constant S_ .f32 0x7F800000#32
  let main_v5 : FVec F S100001x768 .f32 := broadcastInDim S100001x768 ![] bcast_S_S100001x768 main_cst_0
  let main_v6 : IVec S100001x768 1 := cmpf .olt main_v4 main_v5
  let main_c_1 : IVec S_ 1 := constantI S_ 1 1#1
  let main_v7 : IVec S_ 1 := (fun x v => Host.reduce IntOp.andi x v reducesTo_S100001x768_S_d0_1 h_S_) main_v6 main_c_1
  let main_v8 : IVec S_ 1 := andi main_v3 main_v7
  let main_v9 : FVec F S100001x2 .f32 := Host.absf main_arg4
  let main_cst_2 : FVec F S_ .f32 := constant S_ .f32 0x7F800000#32
  let main_v10 : FVec F S100001x2 .f32 := broadcastInDim S100001x2 ![] bcast_S_S100001x2 main_cst_2
  let main_v11 : IVec S100001x2 1 := cmpf .olt main_v9 main_v10
  let main_c_3 : IVec S_ 1 := constantI S_ 1 1#1
  let main_v12 : IVec S_ 1 := (fun x v => Host.reduce IntOp.andi x v reducesTo_S100001x2_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_arg7 main_arg8 main_arg9 main_arg10 main_v13 main_v16
-- ==== Kernel.lean ====
abbrev S16384 : Shape := ⟨1, ![16384]⟩
abbrev S100001x3 : Shape := ⟨2, ![100001, 3]⟩
abbrev S100001x1024 : Shape := ⟨2, ![100001, 1024]⟩
abbrev S100001x768 : Shape := ⟨2, ![100001, 768]⟩
abbrev S100001x2 : Shape := ⟨2, ![100001, 2]⟩
abbrev S128x1 : Shape := ⟨2, ![128, 1]⟩
abbrev S128 : Shape := ⟨1, ![128]⟩
abbrev S3072x2944 : Shape := ⟨2, ![3072, 2944]⟩
abbrev S3072x1024 : Shape := ⟨2, ![3072, 1024]⟩
abbrev S3072 : Shape := ⟨1, ![3072]⟩
abbrev S_ : Shape := ⟨0, ![]⟩
abbrev S16384x1 : Shape := ⟨2, ![16384, 1]⟩
abbrev S16384x3 : Shape := ⟨2, ![16384, 3]⟩
abbrev S16384x1024 : Shape := ⟨2, ![16384, 1024]⟩
abbrev S16384x768 : Shape := ⟨2, ![16384, 768]⟩
abbrev S16384x2 : Shape := ⟨2, ![16384, 2]⟩
abbrev S1x128 : Shape := ⟨2, ![1, 128]⟩
abbrev S16384x128 : Shape := ⟨2, ![16384, 128]⟩
abbrev S128x1024 : Shape := ⟨2, ![128, 1024]⟩
abbrev S128x768 : Shape := ⟨2, ![128, 768]⟩
abbrev S128x2 : Shape := ⟨2, ![128, 2]⟩
abbrev S128x128 : Shape := ⟨2, ![128, 128]⟩
abbrev S128x2944 : Shape := ⟨2, ![128, 2944]⟩
abbrev S128x3072 : Shape := ⟨2, ![128, 3072]⟩
abbrev S1x3072 : Shape := ⟨2, ![1, 3072]⟩

abbrev nBuf : Space → Nat
  | .hbm => 76
  | .vmem => 16
  | .smem => 0
  | _ => 0

abbrev bufTy : (tb : Table) → Fin (tcTables nBuf tb) → BufTy
  | .hbm, ⟨0, _⟩ => ⟨S16384, .i32⟩
  | .hbm, ⟨1, _⟩ => ⟨S100001x3, .i32⟩
  | .hbm, ⟨2, _⟩ => ⟨S100001x1024, .f32⟩
  | .hbm, ⟨3, _⟩ => ⟨S100001x768, .f32⟩
  | .hbm, ⟨4, _⟩ => ⟨S100001x2, .f32⟩
  | .hbm, ⟨5, _⟩ => ⟨S128x1, .f32⟩
  | .hbm, ⟨6, _⟩ => ⟨S128, .f32⟩
  | .hbm, ⟨7, _⟩ => ⟨S3072x2944, .f32⟩
  | .hbm, ⟨8, _⟩ => ⟨S3072x1024, .f32⟩
  | .hbm, ⟨9, _⟩ => ⟨S3072, .f32⟩
  | .hbm, ⟨10, _⟩ => ⟨S3072, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x3, .i32⟩
  | .hbm, ⟨20, _⟩ => ⟨S16384x1, .i32⟩
  | .hbm, ⟨21, _⟩ => ⟨S16384, .i32⟩
  | .hbm, ⟨22, _⟩ => ⟨S16384x1, .i32⟩
  | .hbm, ⟨23, _⟩ => ⟨S16384, .i32⟩
  | .hbm, ⟨24, _⟩ => ⟨S16384x1, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1024, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x1024, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384x768, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x2, .f32⟩
  | .hbm, ⟨62, _⟩ => ⟨S16384, .f32⟩
  | .hbm, ⟨63, _⟩ => ⟨S16384x1, .f32⟩
  | .hbm, ⟨64, _⟩ => ⟨S128, .f32⟩
  | .hbm, ⟨65, _⟩ => ⟨S1x128, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S1x128, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S3072x2944, .bf16⟩
  | .hbm, ⟨74, _⟩ => ⟨S3072x1024, .bf16⟩
  | .hbm, ⟨75, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x768, .f32⟩
  | .local _ .vmem, ⟨5, _⟩ => ⟨S128x768, .f32⟩
  | .local _ .vmem, ⟨6, _⟩ => ⟨S128x2, .f32⟩
  | .local _ .vmem, ⟨7, _⟩ => ⟨S128x2, .f32⟩
  | .local _ .vmem, ⟨8, _⟩ => ⟨S128x128, .f32⟩
  | .local _ .vmem, ⟨9, _⟩ => ⟨S128x128, .f32⟩
  | .local _ .vmem, ⟨10, _⟩ => ⟨S3072x2944, .bf16⟩
  | .local _ .vmem, ⟨11, _⟩ => ⟨S3072x1024, .bf16⟩
  | .local _ .vmem, ⟨12, _⟩ => ⟨S3072, .f32⟩
  | .local _ .vmem, ⟨13, _⟩ => ⟨S3072, .f32⟩
  | .local _ .vmem, ⟨14, _⟩ => ⟨S128x1024, .f32⟩
  | .local _ .vmem, ⟨15, _⟩ => ⟨S128x1024, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3072x2944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  shapeCasts_S128x1_S128 : S128x1.ShapeCasts S128
  bcast_S128_S1x128_1 : S128.BroadcastsInDim S1x128 (![1] : Fin 1 → Fin S1x128.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S128x2_o0_0_S128x1 : S128x2.Slices ![0, 0] S128x1
  slices_S128x2_o0_1_S128x1 : S128x2.Slices ![0, 1] S128x1
  broadcasts_S128x1_S128x1024 : S128x1.Broadcasts S128x1024
  concatenates_S128x1024_S128x1024_S128x768_S128x128_S128x2944_d1 : Shape.Concatenates [S128x1024, S128x1024, S128x768, S128x128] S128x2944 1
  inb_S3072x2944_S3072x2944_0_0 : ∀ a, (![0, 0] : Fin 2 → Nat) a + S3072x2944.size a ≤ S3072x2944.size a
  h_S3072x2944 : 0 < S3072x2944.numel
  shapeCasts_S3072x2944_S3072x2944 : S3072x2944.ShapeCasts S3072x2944
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  gather_S100001x3_S16384x1_S16384x3_1_0_n_n_0_1_13_wf : GatherDims.WF S100001x3 S16384x1 S16384x3 [1] [0] [] [0] [] 1 ![1, 3]
  gather_S100001x1024_S16384x1_S16384x1024_1_0_n_n_0_1_11024_wf : GatherDims.WF S100001x1024 S16384x1 S16384x1024 [1] [0] [] [0] [] 1 ![1, 1024]
  gather_S100001x768_S16384x1_S16384x768_1_0_n_n_0_1_1768_wf : GatherDims.WF S100001x768 S16384x1 S16384x768 [1] [0] [] [0] [] 1 ![1, 768]
  gather_S100001x2_S16384x1_S16384x2_1_0_n_n_0_1_12_wf : GatherDims.WF S100001x2 S16384x1 S16384x2 [1] [0] [] [0] [] 1 ![1, 2]
  dot_S128x2944_S3072x2944_S128x3072_1_1_0_0_n_n_wf : DotDims.WF S128x2944 S3072x2944 S128x3072 [1] [1] [0] [0] [] []
  dot_S128x1024_S3072x1024_S128x3072_1_1_0_0_n_n_wf : DotDims.WF S128x1024 S3072x1024 S128x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S16384x768.size a
  hwx0_2 : ∀ i : grid0.Coords, EltTy.bits .f32 = 32 ∨ (Rect.block (s := S16384x768) S128x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S16384x2.size a
  hwx0_3 : ∀ i : grid0.Coords, EltTy.bits .f32 = 32 ∨ (Rect.block (s := S16384x2) S128x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S16384x128.size a
  hwx0_4 : ∀ i : grid0.Coords, EltTy.bits .f32 = 32 ∨ (Rect.block (s := S16384x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072x2944.size a ≤ S3072x2944.size a
  hwx0_5 : ∀ i : grid0.Coords, EltTy.bits .bf16 = 32 ∨ (Rect.block (s := S3072x2944) S3072x2944.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072x1024.size a ≤ S3072x1024.size a
  hwx0_6 : ∀ i : grid0.Coords, EltTy.bits .bf16 = 32 ∨ (Rect.block (s := S3072x1024) S3072x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072.size a ≤ S3072.size a
  hwx0_7 : ∀ i : grid0.Coords, EltTy.bits .f32 = 32 ∨ (Rect.block (s := S3072) S3072.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3072.size a ≤ S3072.size a
  hwx0_8 : ∀ i : grid0.Coords, EltTy.bits .f32 = 32 ∨ (Rect.block (s := S3072) S3072.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S16384x1024.size a
  hwx0_9 : ∀ i : grid0.Coords, EltTy.bits .f32 = 32 ∨ (Rect.block (s := S16384x1024) S128x1024.size (cc0_transform_9 i) (hinb0_9 i)).WholeWords (EltTy.packing .f32)

variable [Facts₀]

def gather_S100001x3_S16384x1_S16384x3_1_0_n_n_0_1_13 : GatherDims S100001x3 S16384x1 S16384x3 where
  offsetDims := [1]
  collapsedSliceDims := [0]
  operandBatchingDims := []
  startIndicesBatchingDims := []
  startIndexMap := [0]
  indexVectorDim := 1
  sliceSizes := ![1, 3]
  wf := gather_S100001x3_S16384x1_S16384x3_1_0_n_n_0_1_13_wf
def gather_S100001x1024_S16384x1_S16384x1024_1_0_n_n_0_1_11024 : GatherDims S100001x1024 S16384x1 S16384x1024 where
  offsetDims := [1]
  collapsedSliceDims := [0]
  operandBatchingDims := []
  startIndicesBatchingDims := []
  startIndexMap := [0]
  indexVectorDim := 1
  sliceSizes := ![1, 1024]
  wf := gather_S100001x1024_S16384x1_S16384x1024_1_0_n_n_0_1_11024_wf
def gather_S100001x768_S16384x1_S16384x768_1_0_n_n_0_1_1768 : GatherDims S100001x768 S16384x1 S16384x768 where
  offsetDims := [1]
  collapsedSliceDims := [0]
  operandBatchingDims := []
  startIndicesBatchingDims := []
  startIndexMap := [0]
  indexVectorDim := 1
  sliceSizes := ![1, 768]
  wf := gather_S100001x768_S16384x1_S16384x768_1_0_n_n_0_1_1768_wf
def gather_S100001x2_S16384x1_S16384x2_1_0_n_n_0_1_12 : GatherDims S100001x2 S16384x1 S16384x2 where
  offsetDims := [1]
  collapsedSliceDims := [0]
  operandBatchingDims := []
  startIndicesBatchingDims := []
  startIndexMap := [0]
  indexVectorDim := 1
  sliceSizes := ![1, 2]
  wf := gather_S100001x2_S16384x1_S16384x2_1_0_n_n_0_1_12_wf
def dot_S128x2944_S3072x2944_S128x3072_1_1_0_0_n_n : DotDims S128x2944 S3072x2944 S128x3072 where
  lhsContracting := [1]
  rhsContracting := [1]
  lhsNonContracting := [0]
  rhsNonContracting := [0]
  lhsBatch := []
  rhsBatch := []
  wf := dot_S128x2944_S3072x2944_S128x3072_1_1_0_0_n_n_wf
def dot_S128x1024_S3072x1024_S128x3072_1_1_0_0_n_n : DotDims S128x1024 S3072x1024 S128x3072 where
  lhsContracting := [1]
  rhsContracting := [1]
  lhsNonContracting := [0]
  rhsNonContracting := [0]
  lhsBatch := []
  rhsBatch := []
  wf := dot_S128x1024_S3072x1024_S128x3072_1_1_0_0_n_n_wf

abbrev win0_0 : Pipeline.Window sig grid0 :=
  Pipeline.Window.ofSpec (Memref.whole main_v19) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v52) S3072x2944.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S3072x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384 : Shape := ⟨1, ![16384]⟩
abbrev S100001x3 : Shape := ⟨2, ![100001, 3]⟩
abbrev S100001x1024 : Shape := ⟨2, ![100001, 1024]⟩
abbrev S100001x768 : Shape := ⟨2, ![100001, 768]⟩
abbrev S100001x2 : Shape := ⟨2, ![100001, 2]⟩
abbrev S128x1 : Shape := ⟨2, ![128, 1]⟩
abbrev S128 : Shape := ⟨1, ![128]⟩
abbrev S3072x2944 : Shape := ⟨2, ![3072, 2944]⟩
abbrev S3072x1024 : Shape := ⟨2, ![3072, 1024]⟩
abbrev S3072 : Shape := ⟨1, ![3072]⟩
abbrev S_ : Shape := ⟨0, ![]⟩
abbrev S16384x1 : Shape := ⟨2, ![16384, 1]⟩
abbrev S16384x3 : Shape := ⟨2, ![16384, 3]⟩
abbrev S16384x1024 : Shape := ⟨2, ![16384, 1024]⟩
abbrev S16384x768 : Shape := ⟨2, ![16384, 768]⟩
abbrev S16384x2 : Shape := ⟨2, ![16384, 2]⟩
abbrev S1x128 : Shape := ⟨2, ![1, 128]⟩
abbrev S16384x128 : Shape := ⟨2, ![16384, 128]⟩
abbrev S16384x2944 : Shape := ⟨2, ![16384, 2944]⟩
abbrev S2944x3072 : Shape := ⟨2, ![2944, 3072]⟩
abbrev S16384x3072 : Shape := ⟨2, ![16384, 3072]⟩
abbrev S1x3072 : Shape := ⟨2, ![1, 3072]⟩
abbrev S1024x3072 : Shape := ⟨2, ![1024, 3072]⟩

abbrev nBuf : Space → Nat
  | .hbm => 129
  | .vmem => 0
  | .smem => 0
  | _ => 0

abbrev hbmTy0_0 (i : Nat) : BufTy := match i % 128 with
  | 0 => ⟨S16384, .i32⟩
  | 1 => ⟨S100001x3, .i32⟩
  | 2 => ⟨S100001x1024, .f32⟩
  | 3 => ⟨S100001x768, .f32⟩
  | 4 => ⟨S100001x2, .f32⟩
  | 5 => ⟨S128x1, .f32⟩
  | 6 => ⟨S128, .f32⟩
  | 7 => ⟨S3072x2944, .f32⟩
  | 8 => ⟨S3072x1024, .f32⟩
  | 9 => ⟨S3072, .f32⟩
  | 10 => ⟨S3072, .f32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384x3, .i32⟩
  | 20 => ⟨S16384x1, .i32⟩
  | 21 => ⟨S16384, .i32⟩
  | 22 => ⟨S16384x1, .i32⟩
  | 23 => ⟨S16384, .i32⟩
  | 24 => ⟨S16384x1, .i32⟩
  | 25 => ⟨S16384, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S16384x1024, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S16384x1024, .f32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S16384x768, .f32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S16384x2, .f32⟩
  | 62 => ⟨S16384, .f32⟩
  | 63 => ⟨S16384x1, .f32⟩
  | 64 => ⟨S128, .f32⟩
  | 65 => ⟨S1x128, .f32⟩
  | 66 => ⟨S16384x128, .f32⟩
  | 67 => ⟨S16384x128, .f32⟩
  | 68 => ⟨S16384x128, .f32⟩
  | 69 => ⟨S1x128, .f32⟩
  | 70 => ⟨S16384x128, .f32⟩
  | 71 => ⟨S16384x128, .f32⟩
  | 72 => ⟨S16384x128, .f32⟩
  | 73 => ⟨S16384x1, .f32⟩
  | 74 => ⟨S16384x1, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x2944, .f32⟩
  | 86 => ⟨S2944x3072, .f32⟩
  | 87 => ⟨S16384x3072, .f32⟩
  | 88 => ⟨S1x3072, .f32⟩
  | 89 => ⟨S16384x3072, .f32⟩
  | 90 => ⟨S16384x3072, .f32⟩
  | 91 => ⟨S1024x3072, .f32⟩
  | 92 => ⟨S16384x3072, .f32⟩
  | 93 => ⟨S1x3072, .f32⟩
  | 94 => ⟨S16384x3072, .f32⟩
  | 95 => ⟨S16384x3072, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S_, .f32⟩
  | 118 => ⟨S16384x1024, .f32⟩
  | 119 => ⟨S16384x1024, .f32⟩
  | 120 => ⟨S16384x1024, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S16384x1024, .f32⟩
  | 127 => ⟨S16384x1024, .f32⟩
  | _ => ⟨S16384, .i32⟩

abbrev hbmTy0_1 (i : Nat) : BufTy := match i % 128 with
  | 0 => ⟨S16384x1024, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_10 : Ref sig .tc := ⟨.hbm, 114, rfl⟩
abbrev main_v91 : Ref sig .tc := ⟨.hbm, 115, rfl⟩
abbrev main_v92 : Ref sig .tc := ⟨.hbm, 116, rfl⟩
abbrev main_cst_11 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_12 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  shapeCasts_S128x1_S128 : S128x1.ShapeCasts S128
  bcast_S128_S1x128_1 : S128.BroadcastsInDim S1x128 (![1] : Fin 1 → Fin S1x128.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  slices_S16384x2_S16384x1_0_0 : S16384x2.Slices ![0, 0] S16384x1
  slices_S16384x2_S16384x1_0_1 : S16384x2.Slices ![0, 1] S16384x1
  bcast_S16384x1_S16384x1024_0_1 : S16384x1.BroadcastsInDim S16384x1024 (![0, 1] : Fin 2 → Fin S16384x1024.rank)
  concatenates_S16384x1024_S16384x1024_S16384x768_S16384x128_S16384x2944_d1 : Shape.Concatenates [S16384x1024, S16384x1024, S16384x768, S16384x128] S16384x2944 1
  transposes_S3072x2944_S2944x3072_1_0 : S3072x2944.Transposes [1, 0] S2944x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  gather_S100001x3_S16384x1_S16384x3_1_0_n_n_0_1_13_wf : GatherDims.WF S100001x3 S16384x1 S16384x3 [1] [0] [] [0] [] 1 ![1, 3]
  gather_S100001x1024_S16384x1_S16384x1024_1_0_n_n_0_1_11024_wf : GatherDims.WF S100001x1024 S16384x1 S16384x1024 [1] [0] [] [0] [] 1 ![1, 1024]
  gather_S100001x768_S16384x1_S16384x768_1_0_n_n_0_1_1768_wf : GatherDims.WF S100001x768 S16384x1 S16384x768 [1] [0] [] [0] [] 1 ![1, 768]
  gather_S100001x2_S16384x1_S16384x2_1_0_n_n_0_1_12_wf : GatherDims.WF S100001x2 S16384x1 S16384x2 [1] [0] [] [0] [] 1 ![1, 2]
  dot_S16384x2944_S2944x3072_S16384x3072_1_0_0_1_n_n_wf : DotDims.WF S16384x2944 S2944x3072 S16384x3072 [1] [0] [0] [1] [] []
  dot_S16384x1024_S1024x3072_S16384x3072_1_0_0_1_n_n_wf : DotDims.WF S16384x1024 S1024x3072 S16384x3072 [1] [0] [0] [1] [] []

variable [Facts₀]

def gather_S100001x3_S16384x1_S16384x3_1_0_n_n_0_1_13 : GatherDims S100001x3 S16384x1 S16384x3 where
  offsetDims := [1]
  collapsedSliceDims := [0]
  operandBatchingDims := []
  startIndicesBatchingDims := []
  startIndexMap := [0]
  indexVectorDim := 1
  sliceSizes := ![1, 3]
  wf := gather_S100001x3_S16384x1_S16384x3_1_0_n_n_0_1_13_wf
def gather_S100001x1024_S16384x1_S16384x1024_1_0_n_n_0_1_11024 : GatherDims S100001x1024 S16384x1 S16384x1024 where
  offsetDims := [1]
  collapsedSliceDims := [0]
  operandBatchingDims := []
  startIndicesBatchingDims := []
  startIndexMap := [0]
  indexVectorDim := 1
  sliceSizes := ![1, 1024]
  wf := gather_S100001x1024_S16384x1_S16384x1024_1_0_n_n_0_1_11024_wf
def gather_S100001x768_S16384x1_S16384x768_1_0_n_n_0_1_1768 : GatherDims S100001x768 S16384x1 S16384x768 where
  offsetDims := [1]
  collapsedSliceDims := [0]
  operandBatchingDims := []
  startIndicesBatchingDims := []
  startIndexMap := [0]
  indexVectorDim := 1
  sliceSizes := ![1, 768]
  wf := gather_S100001x768_S16384x1_S16384x768_1_0_n_n_0_1_1768_wf
def gather_S100001x2_S16384x1_S16384x2_1_0_n_n_0_1_12 : GatherDims S100001x2 S16384x1 S16384x2 where
  offsetDims := [1]
  collapsedSliceDims := [0]
  operandBatchingDims := []
  startIndicesBatchingDims := []
  startIndexMap := [0]
  indexVectorDim := 1
  sliceSizes := ![1, 2]
  wf := gather_S100001x2_S16384x1_S16384x2_1_0_n_n_0_1_12_wf
def dot_S16384x2944_S2944x3072_S16384x3072_1_0_0_1_n_n : DotDims S16384x2944 S2944x3072 S16384x3072 where
  lhsContracting := [1]
  rhsContracting := [0]
  lhsNonContracting := [0]
  rhsNonContracting := [1]
  lhsBatch := []
  rhsBatch := []
  wf := dot_S16384x2944_S2944x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.Spec.lean ====
/-
  The memory cell as ONE function of rows.

  For one batch row the programs compute a gated recurrent update of that row's memory. Write `s` for the row of
  the node's own memory (1024 entries), `d` for the row of its neighbour's memory, `g` for its raw message (768
  entries), `a`, `b` for the two direction weights and `e` for the time encoding (128 entries). The input of the
  cell is the row of 2944 entries

      mix = [ s·a + d·b | s·b + d·a | g | e ],

  the two affine maps are `gate x W β j = (∑ k, x k · W j k) + β j` for the 3072 output units, split in three
  bands of 1024 (reset, update, candidate), and the new memory at column `q` is

      (1 − z) · tanh (Iₙ + r · Hₙ) + z · s q,    z = σ (I_z + H_z),  r = σ (I_r + H_r),

  where `I = gate mix Wi βi`, `H = gate s Wh βh` and σ is the logistic function. Everything is over the extended
  reals; no law beyond the definitions is used, so nothing here asks for finiteness.
-/
import Idealize.ShloMosaic.PureOps.Ideal
import Idealize.ShloMosaic.PureOps.Ideal.Laws
import Idealize.ShloMosaic.PureOps.IdealRules
import Idealize.ShloMosaic.Lib.ValueIdx

noncomputable section

open Idealize.ShloMosaic Idealize.ShloMosaic.ValueIdx

namespace Cert.GruSpec

/-- The float word of `1.0`, as both programs spell it. -/
abbrev one : EReal := Ideal.ofBits .f32 0x3F800000#32

/-- That word denotes the real number one. -/
theorem one_eq : one = 1 := IdealRules.sign_bit.ideal_onePat .f32

/-- The logistic function spelled with the float word of `1.0`: `1.0 / (1.0 + exp (−x))` is `σ x` on every extended real. -/
theorem logistic_spelled (x : EReal) : Ideal.div one (one + Ideal.exp (-x)) = Ideal.logistic x := by
  rw [one_eq]; rfl

/-- The cell's input row: the two mixtures of the memories, then the message, then the time encoding. -/
def mix (s d : Fin 1024 → EReal) (g : Fin 768 → EReal) (a b : EReal) (e : Fin 128 → EReal) (k : Fin 2944) : EReal :=
  if h1 : k.val < 1024 then s ⟨k.val, h1⟩ * a + d ⟨k.val, h1⟩ * b
  else if h2 : k.val < 2048 then s ⟨k.val - 1024, by omega⟩ * b + d ⟨k.val - 1024, by omega⟩ * a
  else if h3 : k.val < 2816 then g ⟨k.val - 2048, by omega⟩
  else e ⟨k.val - 2816, by have := k.isLt; omega⟩

/-- One affine map of the cell at output unit `j`: the row against row `j` of the weights, plus the bias. -/
def gate {n : Nat} (x : Fin n → EReal) (W : (⟨2, ![3072, n]⟩ : Shape).Idx → EReal)
    (β : (⟨1, ![3072]⟩ : Shape).Idx → EReal) (j : Fin 3072) : EReal :=
  (∑ k : Fin n, x k * W (ix2 j k)) + β (ix1 j)

/-- Output unit `q` of the reset band, of the update band, of the candidate band. -/
abbrev bandR (q : Fin 1024) : Fin 3072 := ⟨q.val, by omega⟩
abbrev bandZ (q : Fin 1024) : Fin 3072 := ⟨q.val + 1024, by omega⟩
abbrev bandN (q : Fin 1024) : Fin 3072 := ⟨q.val + 2048, by omega⟩

/-- The new memory at column `q`, from the input-side pre-activations `I` and the memory-side ones `H`. -/
def blend (I H : Fin 3072 → EReal) (s : Fin 1024 → EReal) (q : Fin 1024) : EReal :=
  (one - Ideal.logistic (I (bandZ q) + H (bandZ q)))
      * Ideal.tanh (I (bandN q) + Ideal.logistic (I (bandR q) + H (bandR q)) * H (bandN q))
    + Ideal.logistic (I (bandZ q) + H (bandZ q)) * s q

/-- The cell: one row's new memory at column `q`. -/
def cell (s d : Fin 1024 → EReal) (g : Fin 768 → EReal) (a b : EReal) (e : Fin 128 → EReal)
    (Wi : (⟨2, ![3072, 2944]⟩ : Shape).Idx → EReal) (Wh : (⟨2, ![3072, 1024]⟩ : Shape).Idx → EReal)
    (βi βh : (⟨1, ![3072]⟩ : Shape).Idx → EReal) (q : Fin 1024) : EReal :=
  blend (gate (mix s d g a b e) Wi βi) (gate s Wh βh) s q

end Cert.GruSpec

end
-- ==== Proof.Concat.lean ====
/-
  Four pieces of widths 1024, 1024, 768 and 128 laid side by side along the second axis of an `R`-row array, read at
  row `r`, column `k`: the piece whose span holds `k`, at `k` less the widths before it. The row count `R` is a
  parameter, so the same reading serves a block of rows and the whole array.
-/
import Idealize.ShloMosaic.Lib.Pipeline.Value
import Idealize.ShloMosaic.Lib.ValueIdx

noncomputable section

open Idealize.ShloMosaic Idealize.ShloMosaic.ValueIdx

namespace Cert.GruConcat

variable {α : Type} {R : Nat}

theorem concat4_apply
    (x1 x2 : (⟨2, ![R, 1024]⟩ : Shape).Idx → α) (x3 : (⟨2, ![R, 768]⟩ : Shape).Idx → α)
    (x4 : (⟨2, ![R, 128]⟩ : Shape).Idx → α)
    (h : Shape.Concatenates [(⟨2, ![R, 1024]⟩ : Shape), ⟨2, ![R, 1024]⟩, ⟨2, ![R, 768]⟩, ⟨2, ![R, 128]⟩] ⟨2, ![R, 2944]⟩ 1)
    (r : Fin R) (k : Fin 2944) :
    concatenate (⟨2, ![R, 2944]⟩ : Shape) 1
        [⟨(⟨2, ![R, 1024]⟩ : Shape), x1⟩, ⟨(⟨2, ![R, 1024]⟩ : Shape), x2⟩, ⟨(⟨2, ![R, 768]⟩ : Shape), x3⟩,
          ⟨(⟨2, ![R, 128]⟩ : Shape), x4⟩] h (ix2 r k)
      = if h1 : k.val < 1024 then x1 (ix2 r ⟨k.val, h1⟩)
        else if h2 : k.val < 2048 then x2 (ix2 r ⟨k.val - 1024, by omega⟩)
        else if h3 : k.val < 2816 then x3 (ix2 r ⟨k.val - 2048, by omega⟩)
        else x4 (ix2 r ⟨k.val - 2816, by have := k.isLt; omega⟩) := by
  have hk := k.isLt
  by_cases h1 : k.val < 1024
  · rw [dif_pos h1]
    refine concatenate_apply_piece (t := (⟨2, ![R, 2944]⟩ : Shape)) (1 : Fin 2)
      [⟨(⟨2, ![R, 1024]⟩ : Shape), x1⟩, ⟨(⟨2, ![R, 1024]⟩ : Shape), x2⟩, ⟨(⟨2, ![R, 768]⟩ : Shape), x3⟩, ⟨(⟨2, ![R, 128]⟩ : Shape), x4⟩]
      h (ix2 r k) 0 (by simp) _ x1 rfl rfl 0 rfl
      (ix2 r ⟨k.val, h1⟩) (fun b hb => ?_) ?_
    · match b with
      | ⟨0, _⟩ => rfl
      | ⟨1, _⟩ => exact absurd (Fin.ext rfl) hb
    · show 0 + k.val = k.val; omega
  rw [dif_neg h1]
  by_cases h2 : k.val < 2048
  · rw [dif_pos h2]
    refine concatenate_apply_piece (t := (⟨2, ![R, 2944]⟩ : Shape)) (1 : Fin 2)
      [⟨(⟨2, ![R, 1024]⟩ : Shape), x1⟩, ⟨(⟨2, ![R, 1024]⟩ : Shape), x2⟩, ⟨(⟨2, ![R, 768]⟩ : Shape), x3⟩, ⟨(⟨2, ![R, 128]⟩ : Shape), x4⟩]
      h (ix2 r k) 1 (by simp) _ x2 rfl rfl 1024 rfl
      (ix2 r ⟨k.val - 1024, by omega⟩) (fun b hb => ?_) ?_
    · match b with
      | ⟨0, _⟩ => rfl
      | ⟨1, _⟩ => exact absurd (Fin.ext rfl) hb
    · show 1024 + (k.val - 1024) = k.val; omega
  rw [dif_neg h2]
  by_cases h3 : k.val < 2816
  · rw [dif_pos h3]
    refine concatenate_apply_piece (t := (⟨2, ![R, 2944]⟩ : Shape)) (1 : Fin 2)
      [⟨(⟨2, ![R, 1024]⟩ : Shape), x1⟩, ⟨(⟨2, ![R, 1024]⟩ : Shape), x2⟩, ⟨(⟨2, ![R, 768]⟩ : Shape), x3⟩, ⟨(⟨2, ![R, 128]⟩ : Shape), x4⟩]
      h (ix2 r k) 2 (by simp) _ x3 rfl rfl 2048 rfl
      (ix2 r ⟨k.val - 2048, by omega⟩) (fun b hb => ?_) ?_
    · match b with
      | ⟨0, _⟩ => rfl
      | ⟨1, _⟩ => exact absurd (Fin.ext rfl) hb
    · show 2048 + (k.val - 2048) = k.val; omega
  rw [dif_neg h3]
  refine concatenate_apply_piece (t := (⟨2, ![R, 2944]⟩ : Shape)) (1 : Fin 2)
      [⟨(⟨2, ![R, 1024]⟩ : Shape), x1⟩, ⟨(⟨2, ![R, 1024]⟩ : Shape), x2⟩, ⟨(⟨2, ![R, 768]⟩ : Shape), x3⟩, ⟨(⟨2, ![R, 128]⟩ : Shape), x4⟩]
      h (ix2 r k) 3 (by simp) _ x4 rfl rfl 2816 rfl
    (ix2 r ⟨k.val - 2816, by omega⟩) (fun b hb => ?_) ?_
  · match b with
    | ⟨0, _⟩ => rfl
    | ⟨1, _⟩ => exact absurd (Fin.ext rfl) hb
  · show 2816 + (k.val - 2816) = k.val; omega

end Cert.GruConcat

end
-- ==== Proof.KernelPayload.lean ====
/-
  What the kernel body computes for one block of 128 batch rows, read entry by entry.

  The body's two affine maps are matrix products into a zero accumulator, contracted over the SECOND axis of both
  operands (rows of the input against rows of the weights), plus the bias broadcast down the rows. Read at row `p`,
  unit `j`, each is the sum over `k` of the input row's entry `k` times the weight `(j, k)`, plus the bias at `j`:
  the cell's `gate`. The input row of the first product is the concatenation of the two mixtures of the memories, the
  message and the time encoding: the cell's `mix`. Narrowing the product's operands to sixteen bits changes nothing
  over the extended reals.
-/
import proofs.«101594_j59201829208560_1_alg».proof.Proof.Gen.KernelIdeal.Skeleton
import proofs.«101594_j59201829208560_1_alg».proof.Proof.Spec
import proofs.«101594_j59201829208560_1_alg».proof.Proof.Concat
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Pay

open Cert.KernelIdeal Cert.KernelIdeal.Gen Cert.GruSpec

/-! ## The direction weights, broadcast along a row -/

/-- Column `0` of the direction block, cut out and broadcast along the row, reads the row's first weight. -/
theorem dir0_apply (D : Vec Ideal S128x2 .f32) (h1 : S128x2.ShapeCasts S128x2) (h2 : S128x2.Slices ![0, 0] S128x1)
    (h3 : S128x1.Broadcasts S128x1024) (p : Fin 128) (q : Fin 1024) :
    broadcastTo S128x1024 (extractStridedSlice S128x1 ![0, 0] (shapeCast S128x2 D h1) h2) h3 (ix2 p q) = D (ix2 p 0) := by
  refine (broadcastTo_apply _ h3 (ix2 p q) (ix2 p 0) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
  refine (extractStridedSlice_apply ![0, 0] _ h2 (ix2 p 0) (ix2 p 0) (fun a => ?_)).trans ?_
  · match a with
    | ⟨0, _⟩ => show p.val = 0 + p.val; omega
    | ⟨1, _⟩ => show 0 = 0 + 0; rfl
  rw [shapeCast_self]

/-- Column `1` likewise reads the row's second weight. -/
theorem dir1_apply (D : Vec Ideal S128x2 .f32) (h1 : S128x2.ShapeCasts S128x2) (h2 : S128x2.Slices ![0, 1] S128x1)
    (h3 : S128x1.Broadcasts S128x1024) (p : Fin 128) (q : Fin 1024) :
    broadcastTo S128x1024 (extractStridedSlice S128x1 ![0, 1] (shapeCast S128x2 D h1) h2) h3 (ix2 p q) = D (ix2 p 1) := by
  refine (broadcastTo_apply _ h3 (ix2 p q) (ix2 p 0) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
  refine (extractStridedSlice_apply ![0, 1] _ h2 (ix2 p 0) (ix2 p 1) (fun a => ?_)).trans ?_
  · match a with
    | ⟨0, _⟩ => show p.val = 0 + p.val; omega
    | ⟨1, _⟩ => show 1 = 1 + 0; rfl
  rw [shapeCast_self]

/-- A bias vector laid out as one row and broadcast down the rows reads the bias at the column. -/
theorem bias_apply (β : Vec Ideal S3072 .f32) (h1 : S3072.ShapeCasts S1x3072) (h2 : S1x3072.Broadcasts S128x3072)
    (p : Fin 128) (j : Fin 3072) :
    broadcastTo S128x3072 (shapeCast S1x3072 β h1) h2 (ix2 p j) = β (ix1 j) := by
  refine (broadcastTo_apply _ h2 (ix2 p j) (ix2 0 j) (fun a => ?_)).trans ?_
  · match a with
    | ⟨0, _⟩ => show 0 = if (1 : Nat) = 1 then 0 else p.val; rw [if_pos rfl]
    | ⟨1, _⟩ => show j.val = if (3072 : Nat) = 1 then 0 else j.val; rw [if_neg (by decide)]
  exact shapeCast_addUnit_apply ![3072] β h1 (ix2 0 j) |>.trans (congrArg β (funext fun a => by
    match a with
    | ⟨0, _⟩ => rfl))

/-! ## The two matrix products, rows against rows -/

theorem lhsI_0 (i : S128x3072.Idx) (q : dot_S128x2944_S3072x2944_S128x3072_1_1_0_0_n_n.contr.Idx) : (dot_S128x2944_S3072x2944_S128x3072_1_1_0_0_n_n.lhsIdx i q 0).val = (i 0).val := by
  unfold DotDims.lhsIdx
  rw [dif_neg (show ¬(0 : Fin S128x2944.rank) ∈ dot_S128x2944_S3072x2944_S128x3072_1_1_0_0_n_n.lhsBatch by decide), dif_pos (show (0 : Fin S128x2944.rank) ∈ dot_S128x2944_S3072x2944_S128x3072_1_1_0_0_n_n.lhsNonContracting by decide)]
  rfl
theorem lhsI_1 (i : S128x3072.Idx) (q : dot_S128x2944_S3072x2944_S128x3072_1_1_0_0_n_n.contr.Idx) : (dot_S128x2944_S3072x2944_S128x3072_1_1_0_0_n_n.lhsIdx i q 1).val = (q ⟨0, by decide⟩).val :=
  dot_S128x2944_S3072x2944_S128x3072_1_1_0_0_n_n.lhsIdx_val_of_single rfl i q
theorem rhsI_0 (i : S128x3072.Idx) (q : dot_S128x2944_S3072x2944_S128x3072_1_1_0_0_n_n.contr.Idx) : (dot_S128x2944_S3072x2944_S128x3072_1_1_0_0_n_n.rhsIdx i q 0).val = (i 1).val := by
  unfold DotDims.rhsIdx
  rw [dif_neg (show ¬(0 : Fin S3072x2944.rank) ∈ dot_S128x2944_S3072x2944_S128x3072_1_1_0_0_n_n.rhsBatch by decide), dif_pos (show (0 : Fin S3072x2944.rank) ∈ dot_S128x2944_S3072x2944_S128x3072_1_1_0_0_n_n.rhsNonContracting by decide)]
  rfl
theorem rhsI_1 (i : S128x3072.Idx) (q : dot_S128x2944_S3072x2944_S128x3072_1_1_0_0_n_n.contr.Idx) : (dot_S128x2944_S3072x2944_S128x3072_1_1_0_0_n_n.rhsIdx i q 1).val = (q ⟨0, by decide⟩).val :=
  dot_S128x2944_S3072x2944_S128x3072_1_1_0_0_n_n.rhsIdx_val_of_single rfl i q

/-- The product of a 2944-wide block with the weights, into the zero accumulator, at row `p`, unit `j`: rows against rows. -/
theorem prodI_apply (X : FVec Ideal S128x2944 .bf16) (W : FVec Ideal S3072x2944 .bf16) (p : Fin 128) (j : Fin 3072) :
    FloatOps.matmul dot_S128x2944_S3072x2944_S128x3072_1_1_0_0_n_n none X W (constant (F := Ideal) S128x3072 .f32 0x00000000#32) (ix2 p j)
      = ∑ k : Fin 2944, X (ix2 p k) * W (ix2 j k) := by
  rw [Ideal.matmul_constant_zero_apply, ← Equiv.sum_comp (contrEquiv1 dot_S128x2944_S3072x2944_S128x3072_1_1_0_0_n_n 2944 rfl rfl).symm]
  refine Finset.sum_congr rfl fun k _ => ?_
  have hk := contrEquiv1_symm_val dot_S128x2944_S3072x2944_S128x3072_1_1_0_0_n_n 2944 rfl rfl k
  have el : dot_S128x2944_S3072x2944_S128x3072_1_1_0_0_n_n.lhsIdx (ix2 p j) ((contrEquiv1 dot_S128x2944_S3072x2944_S128x3072_1_1_0_0_n_n 2944 rfl rfl).symm k) = ix2 p k := funext fun a => Fin.ext (by
    match a with
    | ⟨0, _⟩ => exact lhsI_0 _ _
    | ⟨1, _⟩ => exact (lhsI_1 _ _).trans hk)
  have er : dot_S128x2944_S3072x2944_S128x3072_1_1_0_0_n_n.rhsIdx (ix2 p j) ((contrEquiv1 dot_S128x2944_S3072x2944_S128x3072_1_1_0_0_n_n 2944 rfl rfl).symm k) = ix2 j k := funext fun a => Fin.ext (by
    match a with
    | ⟨0, _⟩ => exact rhsI_0 _ _
    | ⟨1, _⟩ => exact (rhsI_1 _ _).trans hk)
  rw [el, er]

theorem lhsH_0 (i : S128x3072.Idx) (q : dot_S128x1024_S3072x1024_S128x3072_1_1_0_0_n_n.contr.Idx) : (dot_S128x1024_S3072x1024_S128x3072_1_1_0_0_n_n.lhsIdx i q 0).val = (i 0).val := by
  unfold DotDims.lhsIdx
  rw [dif_neg (show ¬(0 : Fin S128x1024.rank) ∈ dot_S128x1024_S3072x1024_S128x3072_1_1_0_0_n_n.lhsBatch by decide), dif_pos (show (0 : Fin S128x1024.rank) ∈ dot_S128x1024_S3072x1024_S128x3072_1_1_0_0_n_n.lhsNonContracting by decide)]
  rfl
theorem lhsH_1 (i : S128x3072.Idx) (q : dot_S128x1024_S3072x1024_S128x3072_1_1_0_0_n_n.contr.Idx) : (dot_S128x1024_S3072x1024_S128x3072_1_1_0_0_n_n.lhsIdx i q 1).val = (q ⟨0, by decide⟩).val :=
  dot_S128x1024_S3072x1024_S128x3072_1_1_0_0_n_n.lhsIdx_val_of_single rfl i q
theorem rhsH_0 (i : S128x3072.Idx) (q : dot_S128x1024_S3072x1024_S128x3072_1_1_0_0_n_n.contr.Idx) : (dot_S128x1024_S3072x1024_S128x3072_1_1_0_0_n_n.rhsIdx i q 0).val = (i 1).val := by
  unfold DotDims.rhsIdx
  rw [dif_neg (show ¬(0 : Fin S3072x1024.rank) ∈ dot_S128x1024_S3072x1024_S128x3072_1_1_0_0_n_n.rhsBatch by decide), dif_pos (show (0 : Fin S3072x1024.rank) ∈ dot_S128x1024_S3072x1024_S128x3072_1_1_0_0_n_n.rhsNonContracting by decide)]
  rfl
theorem rhsH_1 (i : S128x3072.Idx) (q : dot_S128x1024_S3072x1024_S128x3072_1_1_0_0_n_n.contr.Idx) : (dot_S128x1024_S3072x1024_S128x3072_1_1_0_0_n_n.rhsIdx i q 1).val = (q ⟨0, by decide⟩).val :=
  dot_S128x1024_S3072x1024_S128x3072_1_1_0_0_n_n.rhsIdx_val_of_single rfl i q

/-- The product of a 1024-wide block with the weights, into the zero accumulator, at row `p`, unit `j`: rows against rows. -/
theorem prodH_apply (X : FVec Ideal S128x1024 .bf16) (W : FVec Ideal S3072x1024 .bf16) (p : Fin 128) (j : Fin 3072) :
    FloatOps.matmul dot_S128x1024_S3072x1024_S128x3072_1_1_0_0_n_n none X W (constant (F := Ideal) S128x3072 .f32 0x00000000#32) (ix2 p j)
      = ∑ k : Fin 1024, X (ix2 p k) * W (ix2 j k) := by
  rw [Ideal.matmul_constant_zero_apply, ← Equiv.sum_comp (contrEquiv1 dot_S128x1024_S3072x1024_S128x3072_1_1_0_0_n_n 1024 rfl rfl).symm]
  refine Finset.sum_congr rfl fun k _ => ?_
  have hk := contrEquiv1_symm_val dot_S128x1024_S3072x1024_S128x3072_1_1_0_0_n_n 1024 rfl rfl k
  have el : dot_S128x1024_S3072x1024_S128x3072_1_1_0_0_n_n.lhsIdx (ix2 p j) ((contrEquiv1 dot_S128x1024_S3072x1024_S128x3072_1_1_0_0_n_n 1024 rfl rfl).symm k) = ix2 p k := funext fun a => Fin.ext (by
    match a with
    | ⟨0, _⟩ => exact lhsH_0 _ _
    | ⟨1, _⟩ => exact (lhsH_1 _ _).trans hk)
  have er : dot_S128x1024_S3072x1024_S128x3072_1_1_0_0_n_n.rhsIdx (ix2 p j) ((contrEquiv1 dot_S128x1024_S3072x1024_S128x3072_1_1_0_0_n_n 1024 rfl rfl).symm k) = ix2 j k := funext fun a => Fin.ext (by
    match a with
    | ⟨0, _⟩ => exact rhsH_0 _ _
    | ⟨1, _⟩ => exact (rhsH_1 _ _).trans hk)
  rw [el, er]

/-! ## The two affine maps of the block -/

/-- The input-side map at row `p`, unit `j`: the cell's `gate` of the cell's `mix` of the row. -/
theorem inputSide_apply (P0 P1 : Vec Ideal S128x1024 .f32) (P2 : Vec Ideal S128x768 .f32) (P3 : Vec Ideal S128x2 .f32)
    (P4 : Vec Ideal S128x128 .f32) (P5 : Vec Ideal S3072x2944 .bf16) (P6 : Vec Ideal S3072 .f32)
    (p : Fin 128) (j : Fin 3072) :
    k0_pay3 (F := Ideal) P0 P1 P2 P3 P4 P5 P6 (ix2 p j)
      = gate (mix (fun k => P0 (ix2 p k)) (fun k => P1 (ix2 p k)) (fun k => P2 (ix2 p k)) (P3 (ix2 p 0)) (P3 (ix2 p 1))
          (fun k => P4 (ix2 p k))) P5 P6 j := by
  unfold k0_pay3 gate
  show FloatOps.matmul _ none _ _ (constant (F := Ideal) S128x3072 .f32 0x00000000#32) (ix2 p j)
      + broadcastTo S128x3072 (shapeCast S1x3072 P6 _) _ (ix2 p j) = _
  rw [prodI_apply, bias_apply]
  congr 1
  refine Finset.sum_congr rfl fun k _ => ?_
  congr 1
  · refine (Cert.GruConcat.concat4_apply _ _ _ _
      Cert.KernelIdeal.Facts₀.concatenates_S128x1024_S128x1024_S128x768_S128x128_S128x2944_d1 p k).trans ?_
    unfold mix
    split_ifs with h1 h2 h3
    · show k0_pay2 P0 (ix2 p ⟨k.val, h1⟩) * broadcastTo S128x1024 _ _ (ix2 p ⟨k.val, h1⟩)
          + shapeCast S128x1024 P1 _ (ix2 p ⟨k.val, h1⟩) * broadcastTo S128x1024 _ _ (ix2 p ⟨k.val, h1⟩) = _
      rw [dir0_apply, dir1_apply]
      unfold k0_pay2
      rw [shapeCast_self, shapeCast_self]
    · show k0_pay2 P0 (ix2 p ⟨k.val - 1024, _⟩) * broadcastTo S128x1024 _ _ (ix2 p ⟨k.val - 1024, _⟩)
          + shapeCast S128x1024 P1 _ (ix2 p ⟨k.val - 1024, _⟩) * broadcastTo S128x1024 _ _ (ix2 p ⟨k.val - 1024, _⟩) = _
      rw [dir1_apply, dir0_apply]
      unfold k0_pay2
      rw [shapeCast_self, shapeCast_self]
    · rw [shapeCast_self]
    · rw [shapeCast_self]
  · rw [shapeCast_self]

/-- The memory-side map at row `p`, unit `j`: the cell's `gate` of the memory row. -/
theorem memorySide_apply (P0 : Vec Ideal S128x1024 .f32) (P7 : Vec Ideal S3072x1024 .bf16) (P8 : Vec Ideal S3072 .f32)
    (p : Fin 128) (j : Fin 3072) :
    k0_pay4 (F := Ideal) P0 P7 P8 (ix2 p j) = gate (fun k => P0 (ix2 p k)) P7 P8 j := by
  unfold k0_pay4 gate
  show FloatOps.matmul _ none _ _ (constant (F := Ideal) S128x3072 .f32 0x00000000#32) (ix2 p j)
      + broadcastTo S128x3072 (shapeCast S1x3072 P8 _) _ (ix2 p j) = _
  rw [prodH_apply, bias_apply]
  congr 1
  refine Finset.sum_congr rfl fun k _ => ?_
  congr 1
  · show k0_pay2 P0 (ix2 p k) = _
    unfold k0_pay2
    rw [shapeCast_self]
  · rw [shapeCast_self]

end Cert.KernelIdeal.Pay

end
-- ==== Proof.KernelValue.lean ====
/-
  From blocks to the array.

  The kernel runs once per block of 128 batch rows: point `t` of the grid reads rows `128 t … 128 t + 127` of the
  five batch-indexed arrays and the whole of the two weight matrices and the two biases, and writes rows
  `128 t … 128 t + 127` of the result. What it writes at row `p`, column `q` of its block is the cell of the block's
  row `p`, that is, of row `128 t + p` of the arrays. The 128 blocks tile the result, so the result array ends as ONE
  function of the arrays the region finds: entry `(b, q)` is the cell of row `b`.
-/
import proofs.«101594_j59201829208560_1_alg».proof.Proof.KernelIdealValueP
import proofs.«101594_j59201829208560_1_alg».proof.Proof.KernelPayload
import proofs.«101594_j59201829208560_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP Cert.KernelIdeal.ValueP Cert.GruSpec

variable (m : (ℓ : Loc nD τ sig) → Buf (Elt Ideal) ℓ) (ρ : Dev nD → PrngReg)

/-! ## One entry of a block -/

/-- Equal rows, weights and biases give equal cells. -/
theorem cell_congr {s s' d d' : Fin 1024 → EReal} {g g' : Fin 768 → EReal} {a a' b b' : EReal} {e e' : Fin 128 → EReal}
    {Wi Wi' : (⟨2, ![3072, 2944]⟩ : Shape).Idx → EReal} {Wh Wh' : (⟨2, ![3072, 1024]⟩ : Shape).Idx → EReal}
    {βi βi' βh βh' : (⟨1, ![3072]⟩ : Shape).Idx → EReal} (q : Fin 1024)
    (hs : s = s') (hd : d = d') (hg : g = g') (ha : a = a') (hb : b = b') (he : e = e')
    (hWi : Wi = Wi') (hWh : Wh = Wh') (hβi : βi = βi') (hβh : βh = βh') :
    cell s d g a b e Wi Wh βi βh q = cell s' d' g' a' b' e' Wi' Wh' βi' βh' q := by
  subst hs hd hg ha hb he hWi hWh hβi hβh; rfl

/-- What the body leaves at row `p`, column `q` of the block, over the loaded blocks as variables: the cell of row `p`. -/
theorem block_apply (P0 P1 : Vec Ideal S128x1024 .f32) (P2 : Vec Ideal S128x768 .f32) (P3 : Vec Ideal S128x2 .f32)
    (P4 : Vec Ideal S128x128 .f32) (P5 : Vec Ideal S3072x2944 .bf16) (P6 : Vec Ideal S3072 .f32)
    (P7 : Vec Ideal S3072x1024 .bf16) (P8 : Vec Ideal S3072 .f32) (p : Fin 128) (q : Fin 1024) :
    E9 (F := Ideal) P0 P1 P2 P3 P4 P5 P6 P7 P8 (ix2 p q)
      = cell (fun k => P0 (ix2 p k)) (fun k => P1 (ix2 p k)) (fun k => P2 (ix2 p k)) (P3 (ix2 p 0)) (P3 (ix2 p 1))
          (fun k => P4 (ix2 p k)) P5 P7 P6 P8 q := by
  have e0 : ix9_0 (ix2 p q) = ix2 p (bandZ q) := funext fun a => Fin.ext (by match a with | ⟨0, _⟩ => rfl | ⟨1, _⟩ => rfl)
  have e1 : ix9_1 (ix2 p q) = ix2 p (bandZ q) := funext fun a => Fin.ext (by match a with | ⟨0, _⟩ => rfl | ⟨1, _⟩ => rfl)
  have e2 : ix9_2 (ix2 p q) = ix2 p (bandN q) := funext fun a => Fin.ext (by match a with | ⟨0, _⟩ => rfl | ⟨1, _⟩ => rfl)
  have e3 : ix9_3 (ix2 p q) = ix2 p (bandR q) := funext fun a => Fin.ext (by match a with | ⟨0, _⟩ => rfl | ⟨1, _⟩ => rfl)
  have e4 : ix9_4 (ix2 p q) = ix2 p (bandR q) := funext fun a => Fin.ext (by match a with | ⟨0, _⟩ => rfl | ⟨1, _⟩ => rfl)
  have e5 : ix9_5 (ix2 p q) = ix2 p (bandN q) := funext fun a => Fin.ext (by match a with | ⟨0, _⟩ => rfl | ⟨1, _⟩ => rfl)
  have e6 : ix9_6 (ix2 p q) = ix2 p (bandZ q) := funext fun a => Fin.ext (by match a with | ⟨0, _⟩ => rfl | ⟨1, _⟩ => rfl)
  have e7 : ix9_7 (ix2 p q) = ix2 p (bandZ q) := funext fun a => Fin.ext (by match a with | ⟨0, _⟩ => rfl | ⟨1, _⟩ => rfl)
  have e8 : ix9_8 (ix2 p q) = ix2 p q := funext fun a => Fin.ext (by match a with | ⟨0, _⟩ => rfl | ⟨1, _⟩ => rfl)
  have hI : ∀ (ι : S128x3072.Idx) (j : Fin 3072), ι = ix2 p j → k0_pay3 (F := Ideal) P0 P1 P2 P3 P4 P5 P6 ι
      = gate (mix (fun k => P0 (ix2 p k)) (fun k => P1 (ix2 p k)) (fun k => P2 (ix2 p k)) (P3 (ix2 p 0)) (P3 (ix2 p 1))
          (fun k => P4 (ix2 p k))) P5 P6 j :=
    fun ι j h => (congrArg (k0_pay3 (F := Ideal) P0 P1 P2 P3 P4 P5 P6) h).trans (Pay.inputSide_apply P0 P1 P2 P3 P4 P5 P6 p j)
  have hH : ∀ (ι : S128x3072.Idx) (j : Fin 3072), ι = ix2 p j → k0_pay4 (F := Ideal) P0 P7 P8 ι
      = gate (fun k => P0 (ix2 p k)) P7 P8 j :=
    fun ι j h => (congrArg (k0_pay4 (F := Ideal) P0 P7 P8) h).trans (Pay.memorySide_apply P0 P7 P8 p j)
  unfold cell blend
  exact congrArg₂ (fun u v : EReal => u + v)
    (congrArg₂ (fun u v : EReal => u * v)
      (congrArg (fun u : EReal => one - Ideal.logistic u)
        (congrArg₂ (fun u v : EReal => u + v) (hI _ _ e0) (hH _ _ e1)))
      (congrArg Ideal.tanh
        (congrArg₂ (fun u v : EReal => u + v) (hI _ _ e2)
          (congrArg₂ (fun u v : EReal => u * v)
            (congrArg Ideal.logistic (congrArg₂ (fun u v : EReal => u + v) (hI _ _ e3) (hH _ _ e4)))
            (hH _ _ e5)))))
    (congrArg₂ (fun u v : EReal => u * v)
      (congrArg Ideal.logistic (congrArg₂ (fun u v : EReal => u + v) (hI _ _ e6) (hH _ _ e7)))
      (congrArg P0 e8))

theorem hz2 : (![0, 0] : Fin 2 → Nat) = fun _ => 0 := funext fun a => by fin_cases a <;> rfl
theorem hz1 : (![0] : Fin 1 → Nat) = fun _ => 0 := funext fun a => by fin_cases a; rfl

/-- What the body leaves in the output's buffer is that function of the loaded blocks (each block loaded whole). -/
theorem out_apply (B0 B1 : Vec Ideal S128x1024 .f32) (B2 : Vec Ideal S128x768 .f32) (B3 : Vec Ideal S128x2 .f32)
    (B4 : Vec Ideal S128x128 .f32) (B5 : Vec Ideal S3072x2944 .bf16) (B6 : Vec Ideal S3072x1024 .bf16)
    (B7 B8 : Vec Ideal S3072 .f32) (p : Fin 128) (q : Fin 1024) :
    out0_9 B0 B1 B2 B3 B4 B5 B6 B7 B8 (ix2 p q)
      = cell (fun k => B0 (ix2 p k)) (fun k => B1 (ix2 p k)) (fun k => B2 (ix2 p k)) (B3 (ix2 p 0)) (B3 (ix2 p 1))
          (fun k => B4 (ix2 p k)) B5 B6 B7 B8 q := by
  unfold out0_9
  refine (canon9_eq _ _ _ _ _ _ _ _ _ (ix2 p q)).trans ?_
  simp only [View.ld_unit_zero (S := S128x1024) hz2, View.ld_unit_zero (S := S128x768) hz2,
    View.ld_unit_zero (S := S128x2) hz2, View.ld_unit_zero (S := S128x128) hz2, View.ld_unit_zero (S := S3072x2944) hz2,
    View.ld_unit_zero (S := S3072x1024) hz2, View.ld_unit_zero (S := S3072) hz1]
  exact block_apply B0 B1 B2 B3 B4 B5 B7 B6 B8 p q

/-! ## The windows' blocks as parts of their arrays -/

/-- The printed index maps over the grid: the batch-indexed windows (and the result's) sit at block row `t`, the
    weights and biases at block `0`. -/
structure IdxFacts (t : Fin cfg0.N) : Prop where
  r0 : win0_0.index t (0 : Fin 2) = t.val ∧ win0_0.index t (1 : Fin 2) = 0
  r1 : win0_1.index t (0 : Fin 2) = t.val ∧ win0_1.index t (1 : Fin 2) = 0
  r2 : win0_2.index t (0 : Fin 2) = t.val ∧ win0_2.index t (1 : Fin 2) = 0
  r3 : win0_3.index t (0 : Fin 2) = t.val ∧ win0_3.index t (1 : Fin 2) = 0
  r4 : win0_4.index t (0 : Fin 2) = t.val ∧ win0_4.index t (1 : Fin 2) = 0
  r9 : win0_9.index t (0 : Fin 2) = t.val ∧ win0_9.index t (1 : Fin 2) = 0
  w5 : win0_5.index t (0 : Fin 2) = 0 ∧ win0_5.index t (1 : Fin 2) = 0
  w6 : win0_6.index t (0 : Fin 2) = 0 ∧ win0_6.index t (1 : Fin 2) = 0
  w7 : win0_7.index t (0 : Fin 1) = 0
  w8 : win0_8.index t (0 : Fin 1) = 0

theorem idx_facts : ∀ t : Fin cfg0.N, IdxFacts t :=
  fun t => ⟨(by decide +kernel : ∀ t : Fin grid0.N, win0_0.index t (0 : Fin 2) = t.val ∧ win0_0.index t (1 : Fin 2) = 0) t,
    (by decide +kernel : ∀ t : Fin grid0.N, win0_1.index t (0 : Fin 2) = t.val ∧ win0_1.index t (1 : Fin 2) = 0) t,
    (by decide +kernel : ∀ t : Fin grid0.N, win0_2.index t (0 : Fin 2) = t.val ∧ win0_2.index t (1 : Fin 2) = 0) t,
    (by decide +kernel : ∀ t : Fin grid0.N, win0_3.index t (0 : Fin 2) = t.val ∧ win0_3.index t (1 : Fin 2) = 0) t,
    (by decide +kernel : ∀ t : Fin grid0.N, win0_4.index t (0 : Fin 2) = t.val ∧ win0_4.index t (1 : Fin 2) = 0) t,
    (by decide +kernel : ∀ t : Fin grid0.N, win0_9.index t (0 : Fin 2) = t.val ∧ win0_9.index t (1 : Fin 2) = 0) t,
    (by decide +kernel : ∀ t : Fin grid0.N, win0_5.index t (0 : Fin 2) = 0 ∧ win0_5.index t (1 : Fin 2) = 0) t,
    (by decide +kernel : ∀ t : Fin grid0.N, win0_6.index t (0 : Fin 2) = 0 ∧ win0_6.index t (1 : Fin 2) = 0) t,
    (by decide +kernel : ∀ t : Fin grid0.N, win0_7.index t (0 : Fin 1) = 0) t,
    (by decide +kernel : ∀ t : Fin grid0.N, win0_8.index t (0 : Fin 1) = 0) t⟩

/-- Window 0's block at point `t` is rows `128 t … 128 t + 127` of its array. -/
theorem read0 (c : Dev nD) (t : Fin cfg0.N) (p : Fin 128) (k : Fin 1024) (r : Fin 16384) (hr : r.val = 128 * t.val + p.val) :
    (iblk m c 0 t : Vec Ideal S128x1024 .f32) (ix2 p k) = (V m c main_v19 : S16384x1024.Idx → EReal) (ix2 r k) := by
  have hi := idx_facts t
  unfold iblk
  rw [View.read_apply]
  refine congrArg (V m c main_v19 : S16384x1024.Idx → EReal) (funext fun a => Fin.ext ?_)
  match a with
  | ⟨0, _⟩ => show win0_0.index t (0 : Fin 2) * 128 + 1 * p.val = r.val; rw [hi.r0.1, hr]; omega
  | ⟨1, _⟩ => show win0_0.index t (1 : Fin 2) * 1024 + 1 * k.val = k.val; rw [hi.r0.2]; omega

/-- Window 1's block at point `t` is rows `128 t … 128 t + 127` of its array. -/
theorem read1 (c : Dev nD) (t : Fin cfg0.N) (p : Fin 128) (k : Fin 1024) (r : Fin 16384) (hr : r.val = 128 * t.val + p.val) :
    (iblk m c 1 t : Vec Ideal S128x1024 .f32) (ix2 p k) = (V m c main_v26 : S16384x1024.Idx → EReal) (ix2 r k) := by
  have hi := idx_facts t
  unfold iblk
  rw [View.read_apply]
  refine congrArg (V m c main_v26 : S16384x1024.Idx → EReal) (funext fun a => Fin.ext ?_)
  match a with
  | ⟨0, _⟩ => show win0_1.index t (0 : Fin 2) * 128 + 1 * p.val = r.val; rw [hi.r1.1, hr]; omega
  | ⟨1, _⟩ => show win0_1.index t (1 : Fin 2) * 1024 + 1 * k.val = k.val; rw [hi.r1.2]; omega

/-- Window 2's block at point `t` is rows `128 t … 128 t + 127` of its array. -/
theorem read2 (c : Dev nD) (t : Fin cfg0.N) (p : Fin 128) (k : Fin 768) (r : Fin 16384) (hr : r.val = 128 * t.val + p.val) :
    (iblk m c 2 t : Vec Ideal S128x768 .f32) (ix2 p k) = (V m c main_v33 : S16384x768.Idx → EReal) (ix2 r k) := by
  have hi := idx_facts t
  unfold iblk
  rw [View.read_apply]
  refine congrArg (V m c main_v33 : S16384x768.Idx → EReal) (funext fun a => Fin.ext ?_)
  match a with
  | ⟨0, _⟩ => show win0_2.index t (0 : Fin 2) * 128 + 1 * p.val = r.val; rw [hi.r2.1, hr]; omega
  | ⟨1, _⟩ => show win0_2.index t (1 : Fin 2) * 768 + 1 * k.val = k.val; rw [hi.r2.2]; omega

/-- Window 3's block at point `t` is rows `128 t … 128 t + 127` of its array. -/
theorem read3 (c : Dev nD) (t : Fin cfg0.N) (p : Fin 128) (k : Fin 2) (r : Fin 16384) (hr : r.val = 128 * t.val + p.val) :
    (iblk m c 3 t : Vec Ideal S128x2 .f32) (ix2 p k) = (V m c main_v40 : S16384x2.Idx → EReal) (ix2 r k) := by
  have hi := idx_facts t
  unfold iblk
  rw [View.read_apply]
  refine congrArg (V m c main_v40 : S16384x2.Idx → EReal) (funext fun a => Fin.ext ?_)
  match a with
  | ⟨0, _⟩ => show win0_3.index t (0 : Fin 2) * 128 + 1 * p.val = r.val; rw [hi.r3.1, hr]; omega
  | ⟨1, _⟩ => show win0_3.index t (1 : Fin 2) * 2 + 1 * k.val = k.val; rw [hi.r3.2]; omega

/-- Window 4's block at point `t` is rows `128 t … 128 t + 127` of its array. -/
theorem read4 (c : Dev nD) (t : Fin cfg0.N) (p : Fin 128) (k : Fin 128) (r : Fin 16384) (hr : r.val = 128 * t.val + p.val) :
    (iblk m c 4 t : Vec Ideal S128x128 .f32) (ix2 p k) = (V m c main_v51 : S16384x128.Idx → EReal) (ix2 r k) := by
  have hi := idx_facts t
  unfold iblk
  rw [View.read_apply]
  refine congrArg (V m c main_v51 : S16384x128.Idx → EReal) (funext fun a => Fin.ext ?_)
  match a with
  | ⟨0, _⟩ => show win0_4.index t (0 : Fin 2) * 128 + 1 * p.val = r.val; rw [hi.r4.1, hr]; omega
  | ⟨1, _⟩ => show win0_4.index t (1 : Fin 2) * 128 + 1 * k.val = k.val; rw [hi.r4.2]; omega

/-- The input-side weights are staged whole at every point. -/
theorem read5 (c : Dev nD) (t : Fin cfg0.N) :
    (iblk m c 5 t : Vec Ideal S3072x2944 .bf16) = (V m c main_v52 : S3072x2944.Idx → EReal) := by
  have hi := idx_facts t
  funext y
  unfold iblk
  rw [View.read_apply]
  refine congrArg (V m c main_v52 : S3072x2944.Idx → EReal) (funext fun a => Fin.ext ?_)
  match a with
  | ⟨0, _⟩ => show win0_5.index t (0 : Fin 2) * 3072 + 1 * (y 0).val = (y 0).val; rw [hi.w5.1]; omega
  | ⟨1, _⟩ => show win0_5.index t (1 : Fin 2) * 2944 + 1 * (y 1).val = (y 1).val; rw [hi.w5.2]; omega

/-- The memory-side weights are staged whole at every point. -/
theorem read6 (c : Dev nD) (t : Fin cfg0.N) :
    (iblk m c 6 t : Vec Ideal S3072x1024 .bf16) = (V m c main_v53 : S3072x1024.Idx → EReal) := by
  have hi := idx_facts t
  funext y
  unfold iblk
  rw [View.read_apply]
  refine congrArg (V m c main_v53 : S3072x1024.Idx → EReal) (funext fun a => Fin.ext ?_)
  match a with
  | ⟨0, _⟩ => show win0_6.index t (0 : Fin 2) * 3072 + 1 * (y 0).val = (y 0).val; rw [hi.w6.1]; omega
  | ⟨1, _⟩ => show win0_6.index t (1 : Fin 2) * 1024 + 1 * (y 1).val = (y 1).val; rw [hi.w6.2]; omega

/-- The two biases are staged whole at every point. -/
theorem read7 (c : Dev nD) (t : Fin cfg0.N) :
    (iblk m c 7 t : Vec Ideal S3072 .f32) = (V m c main_arg9 : S3072.Idx → EReal) := by
  have hi := idx_facts t
  funext y
  unfold iblk
  rw [View.read_apply]
  refine congrArg (V m c main_arg9 : S3072.Idx → EReal) (funext fun a => Fin.ext ?_)
  match a with
  | ⟨0, _⟩ => show win0_7.index t (0 : Fin 1) * 3072 + 1 * (y 0).val = (y 0).val; rw [hi.w7]; omega

theorem read8 (c : Dev nD) (t : Fin cfg0.N) :
    (iblk m c 8 t : Vec Ideal S3072 .f32) = (V m c main_arg10 : S3072.Idx → EReal) := by
  have hi := idx_facts t
  funext y
  unfold iblk
  rw [View.read_apply]
  refine congrArg (V m c main_arg10 : S3072.Idx → EReal) (funext fun a => Fin.ext ?_)
  match a with
  | ⟨0, _⟩ => show win0_8.index t (0 : Fin 1) * 3072 + 1 * (y 0).val = (y 0).val; rw [hi.w8]; omega

/-! ## The result array as one function -/

/-- The cell of row `r` of the arrays the region finds, at column `q`. -/
def cellAt (c : Dev nD) (r : Fin 16384) (q : Fin 1024) : EReal :=
  cell (fun k => (V m c main_v19 : S16384x1024.Idx → EReal) (ix2 r k))
    (fun k => (V m c main_v26 : S16384x1024.Idx → EReal) (ix2 r k))
    (fun k => (V m c main_v33 : S16384x768.Idx → EReal) (ix2 r k))
    ((V m c main_v40 : S16384x2.Idx → EReal) (ix2 r 0)) ((V m c main_v40 : S16384x2.Idx → EReal) (ix2 r 1))
    (fun k => (V m c main_v51 : S16384x128.Idx → EReal) (ix2 r k))
    (V m c main_v52 : S3072x2944.Idx → EReal) (V m c main_v53 : S3072x1024.Idx → EReal)
    (V m c main_arg9 : S3072.Idx → EReal) (V m c main_arg10 : S3072.Idx → EReal) q

abbrev rowOf (i : S16384x1024.Idx) : Fin 16384 := ⟨(i 0).val, (i 0).isLt⟩
abbrev colOf (i : S16384x1024.Idx) : Fin 1024 := ⟨(i 1).val, (i 1).isLt⟩

/-- The result array: entry `i` is the cell of row `i 0` at column `i 1`. -/
def result (c : Dev nD) : S16384x1024.Idx → EReal := fun i => cellAt m c (rowOf i) (colOf i)

theorem N128 : cfg0.N = 128 := N_0

/-- What point `t` leaves at entry `(p, q)` of its block is the cell of row `128 t + p`. -/
theorem point_apply (c : Dev nD) (t : Fin cfg0.N) (p : Fin 128) (q : Fin 1024) (r : Fin 16384)
    (hr : r.val = 128 * t.val + p.val) :
    out0_9 (iblk m c 0 t) (iblk m c 1 t) (iblk m c 2 t) (iblk m c 3 t) (iblk m c 4 t) (iblk m c 5 t) (iblk m c 6 t)
        (iblk m c 7 t) (iblk m c 8 t) (ix2 p q) = cellAt m c r q := by
  refine (out_apply _ _ _ _ _ _ _ _ _ p q).trans ?_
  unfold cellAt
  exact cell_congr q (funext fun k => read0 m c t p k r hr) (funext fun k => read1 m c t p k r hr)
    (funext fun k => read2 m c t p k r hr) (read3 m c t p 0 r hr) (read3 m c t p 1 r hr)
    (funext fun k => read4 m c t p k r hr) (read5 m c t) (read6 m c t) (read7 m c t) (read8 m c t)

/-- WHAT POINT `t` WRITES BACK is block `t` of `result`. -/
theorem flushed_eq (c : Dev nD) (t : Fin cfg0.N) :
    (dats m 0 c).flushed 9 t = ((cfg0.win 9).blk t).view.read (Elt Ideal) (result m c) := by
  have hi := idx_facts t
  have hN : t.val < 128 := lt_of_lt_of_eq t.isLt N128
  rw [flushed9]
  funext y
  have hy0 : (y 0).val < 128 := (y 0).isLt
  have hy1 : (y 1).val < 1024 := (y 1).isLt
  show out0_9 (iblk m c 0 t) (iblk m c 1 t) (iblk m c 2 t) (iblk m c 3 t) (iblk m c 4 t) (iblk m c 5 t) (iblk m c 6 t)
      (iblk m c 7 t) (iblk m c 8 t) y = result m c (((cfg0.win 9).blk t).view.emb y)
  have hy : y = ix2 (⟨(y 0).val, hy0⟩ : Fin 128) (⟨(y 1).val, hy1⟩ : Fin 1024) :=
    funext fun a => Fin.ext (by match a with | ⟨0, _⟩ => rfl | ⟨1, _⟩ => rfl)
  have hrow : rowOf (((cfg0.win 9).blk t).view.emb y) = (⟨128 * t.val + (y 0).val, by omega⟩ : Fin 16384) :=
    Fin.ext (by show win0_9.index t (0 : Fin 2) * 128 + 1 * (y 0).val = 128 * t.val + (y 0).val; rw [hi.r9.1]; omega)
  have hcol : colOf (((cfg0.win 9).blk t).view.emb y) = (⟨(y 1).val, hy1⟩ : Fin 1024) :=
    Fin.ext (by show win0_9.index t (1 : Fin 2) * 1024 + 1 * (y 1).val = (y 1).val; rw [hi.r9.2]; omega)
  show _ = cellAt m c (rowOf (((cfg0.win 9).blk t).view.emb y)) (colOf (((cfg0.win 9).blk t).view.emb y))
  rw [hrow, hcol]
  exact (congrArg (out0_9 (iblk m c 0 t) (iblk m c 1 t) (iblk m c 2 t) (iblk m c 3 t) (iblk m c 4 t) (iblk m c 5 t)
    (iblk m c 6 t) (iblk m c 7 t) (iblk m c 8 t)) hy).trans (point_apply m c t _ _ _ rfl)

/-- An index of the result is in point `t`'s block iff each coordinate is in the block's range on its axis. -/
theorem mem_blk9 (t : Fin cfg0.N) (i : S16384x1024.Idx) :
    i ∈ ((cfg0.win 9).blk t).view.set ↔ ∀ a : Fin 2, win0_9.index t a * S128x1024.size a ≤ (i a).val
      ∧ (i a).val < win0_9.index t a * S128x1024.size a + S128x1024.size a := by
  show i ∈ ((View.whole main_v54).slice (win0_9.rect t)).set ↔ _
  rw [View.set_slice_whole, Rect.mem_set_unit]
  exact Iff.rfl

/-- THE ARRAY after the run: the 128 row blocks tile it, so it is `result`. -/
theorem final (c : Dev nD) : (dats m 0 c).arrAt 9 cfg0.N = result m c :=
  (dats m 0 c).arrAt_eq_of_cover 9 (result m c) (fun t _ => flushed_eq m c t) fun i => by
    have hi0 : (i 0).val < 16384 := (i 0).isLt
    have hi1 : (i 1).val < 1024 := (i 1).isLt
    have ht : (i 0).val / 128 < cfg0.N := by rw [N128]; omega
    have hi := idx_facts ⟨(i 0).val / 128, ht⟩
    refine ⟨⟨(i 0).val / 128, ht⟩, flush0_9 _, ?_⟩
    rw [mem_blk9]
    intro a
    match a with
    | ⟨0, _⟩ =>
      show win0_9.index ⟨(i 0).val / 128, ht⟩ (0 : Fin 2) * 128 ≤ (i 0).val
        ∧ (i 0).val < win0_9.index ⟨(i 0).val / 128, ht⟩ (0 : Fin 2) * 128 + 128
      rw [hi.r9.1]; show (i 0).val / 128 * 128 ≤ (i 0).val ∧ (i 0).val < (i 0).val / 128 * 128 + 128; omega
    | ⟨1, _⟩ =>
      show win0_9.index ⟨(i 0).val / 128, ht⟩ (1 : Fin 2) * 1024 ≤ (i 1).val
        ∧ (i 1).val < win0_9.index ⟨(i 0).val / 128, ht⟩ (1 : Fin 2) * 1024 + 1024
      rw [hi.r9.2]; omega

/-! ## The run, read -/

/-- The integer result buffer, written by the host before the region, is as the region found it. -/
theorem kept_main_v8 (r : PUnit × MemSt nD τ sig (Elt Ideal)) (h : Pipeline.FramePost cfgs (dats m) 0 (V m) r) (c : Dev nD) :
    r.2.mem ((c : Thread nD τ).loc main_v8) = V m c main_v8 :=
  (h c).2 main_v8 (Pipeline.mem_restRefs_of main_v8 (by decide) (by decide))

/-- The frame run re-posted: the float result at `result`, the integer result as the host wrote it, the arguments unchanged. -/
theorem run : θ_run defs (onTc (τ := τ) (main (F := Ideal))) ⟨m, fun _ => 0, ρ⟩ fun r => ∀ c : Dev nD,
      r.2.mem ((c : Thread nD τ).loc main_v54) = result m c
      ∧ r.2.mem ((c : Thread nD τ).loc main_v8) = V m c main_v8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post9 m r h c).trans (final m c), kept_main_v8 m r h c,
      kept_main_arg0 m r h c, kept_main_arg1 m r h c, kept_main_arg2 m r h c, kept_main_arg3 m r h c,
      kept_main_arg4 m r h c, kept_main_arg5 m r h c, kept_main_arg6 m r h c, kept_main_arg7 m r h c,
      kept_main_arg8 m r h c, kept_main_arg9 m r h c, kept_main_arg10 m r h c⟩)
    (run_main m ρ)

end Cert.KernelIdeal.Hand

end
-- ==== Proof.HostSide.lean ====
/-
  Before its one kernel launch the kernel's program runs, on the host, the very operations the reference starts with:
  the index normalisation and the gathers of the memory rows, the message rows and the direction weights, the cosine
  time encoding of the gathered time stamps, and (kernel only) a narrowing of the two weight matrices to sixteen bits,
  which over the extended reals changes nothing. So the arrays the launch finds are the reference's stages of the same
  arguments, and the integer result, written by the host before the launch, is the reference's too.
-/
import proofs.«101594_j59201829208560_1_alg».proof.Proof.KernelIdealFrameP
import proofs.«101594_j59201829208560_1_alg».proof.Proof.Gen.ReferenceIdeal.Read
import Idealize.ShloMosaic.Lib.StableHlo.Run

noncomputable section

open Idealize.ShloMosaic Idealize.ShloMosaic.TcCoe Idealize.SL.Sem

namespace Cert.KernelIdeal.HostSide

open Cert.KernelIdeal Cert.KernelIdeal.Gen Cert.KernelIdeal.GenP

variable (m : (ℓ : Loc nD τ sig) → Buf (Elt Ideal) ℓ)

/-- The gathered rows of the nodes' own memory. -/
theorem src_eq (c : Dev nD) :
    (V m c main_v19 : S16384x1024.Idx → EReal) = Cert.ReferenceIdeal.Read.val_main_v19 (F := Ideal) (m ((c : Thread nD τ).loc main_arg0)) (m ((c : Thread nD τ).loc main_arg2)) := by
  dsimp only [GenP.V]
  after_results_simp <;> rfl

/-- The gathered rows of the neighbours' memory (a gather through a gathered index). -/
theorem dst_eq (c : Dev nD) :
    (V m c main_v26 : S16384x1024.Idx → EReal)
      = Cert.ReferenceIdeal.Read.val_main_v26 (F := Ideal) (m ((c : Thread nD τ).loc main_arg0)) (m ((c : Thread nD τ).loc main_arg1)) (m ((c : Thread nD τ).loc main_arg2)) := by
  dsimp only [GenP.V]
  after_results_simp <;> rfl

/-- The gathered raw messages. -/
theorem msg_eq (c : Dev nD) :
    (V m c main_v33 : S16384x768.Idx → EReal) = Cert.ReferenceIdeal.Read.val_main_v33 (F := Ideal) (m ((c : Thread nD τ).loc main_arg0)) (m ((c : Thread nD τ).loc main_arg3)) := by
  dsimp only [GenP.V]
  after_results_simp <;> rfl

/-- The gathered direction weights. -/
theorem dir_eq (c : Dev nD) :
    (V m c main_v40 : S16384x2.Idx → EReal) = Cert.ReferenceIdeal.Read.val_main_v40 (F := Ideal) (m ((c : Thread nD τ).loc main_arg0)) (m ((c : Thread nD τ).loc main_arg4)) := by
  dsimp only [GenP.V]
  after_results_simp <;> rfl

/-- The time encoding. -/
theorem time_eq (c : Dev nD) :
    (V m c main_v51 : S16384x128.Idx → EReal)
      = Cert.ReferenceIdeal.Read.val_main_v51 (F := Ideal) (m ((c : Thread nD τ).loc main_arg0)) (m ((c : Thread nD τ).loc main_arg1)) (m ((c : Thread nD τ).loc main_arg5)) (m ((c : Thread nD τ).loc main_arg6)) := by
  dsimp only [GenP.V]
  after_results_simp <;> rfl

/-- The input-side weights, narrowed: the argument itself. -/
theorem wih_eq (c : Dev nD) : (V m c main_v52 : S3072x2944.Idx → EReal) = (m ((c : Thread nD τ).loc main_arg7)) := by
  dsimp only [GenP.V]
  after_results_simp <;> rfl

/-- The memory-side weights, narrowed: the argument itself. -/
theorem whh_eq (c : Dev nD) : (V m c main_v53 : S3072x1024.Idx → EReal) = (m ((c : Thread nD τ).loc main_arg8)) := by
  dsimp only [GenP.V]
  after_results_simp <;> rfl

/-- The integer result (the gathered time of last update), written before the launch. -/
theorem upd_eq (c : Dev nD) :
    V m c main_v8 = Cert.ReferenceIdeal.Read.val_main_v8 (F := Ideal) (m ((c : Thread nD τ).loc main_arg0)) (m ((c : Thread nD τ).loc main_arg1)) := by
  dsimp only [GenP.V]
  after_results_simp <;> rfl

end Cert.KernelIdeal.HostSide

end
-- ==== Proof.RefValue.lean ====
/-
  The reference's result, read entry by entry, is the cell of the rows of its gathered arrays.

  The reference gathers the memory rows, the message rows, the direction weights and computes the time encoding on the
  whole batch; from there on every operation is either entry-wise, a re-laying (slice, broadcast, transpose,
  concatenation) or one of the two matrix products against the TRANSPOSED weights, contracted over the input's second
  axis: at row `b`, unit `j` the sum over `k` of the input's entry `(b, k)` times the weight `(j, k)`. The
  logistic function is spelled out as `1 / (1 + exp (−x))`.
-/
import proofs.«101594_j59201829208560_1_alg».proof.Proof.Gen.ReferenceIdeal.Read
import proofs.«101594_j59201829208560_1_alg».proof.Proof.Spec
import proofs.«101594_j59201829208560_1_alg».proof.Proof.Concat
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.GruSpec

variable (x0 : (⟨S16384, .i32⟩ : BufTy).Contents (Elt Ideal)) (x1 : (⟨S100001x3, .i32⟩ : BufTy).Contents (Elt Ideal))
    (x2 : (⟨S100001x1024, .f32⟩ : BufTy).Contents (Elt Ideal)) (x3 : (⟨S100001x768, .f32⟩ : BufTy).Contents (Elt Ideal))
    (x4 : (⟨S100001x2, .f32⟩ : BufTy).Contents (Elt Ideal)) (x5 : (⟨S128x1, .f32⟩ : BufTy).Contents (Elt Ideal))
    (x6 : (⟨S128, .f32⟩ : BufTy).Contents (Elt Ideal)) (x7 : (⟨S3072x2944, .f32⟩ : BufTy).Contents (Elt Ideal))
    (x8 : (⟨S3072x1024, .f32⟩ : BufTy).Contents (Elt Ideal)) (x9 x10 : (⟨S3072, .f32⟩ : BufTy).Contents (Elt Ideal))

/-- The reference's concatenated input at row `b`, column `k` is the cell's input row of the gathered rows. -/
theorem input_apply (b : Fin 16384) (k : Fin 2944) :
    val_main_v64 (F := Ideal) x0 x1 x2 x3 x4 x5 x6 (ix2 b k)
      = mix (fun k => val_main_v19 (F := Ideal) x0 x2 (ix2 b k)) (fun k => val_main_v26 (F := Ideal) x0 x1 x2 (ix2 b k))
          (fun k => val_main_v33 (F := Ideal) x0 x3 (ix2 b k)) (val_main_v40 (F := Ideal) x0 x4 (ix2 b 0))
          (val_main_v40 (F := Ideal) x0 x4 (ix2 b 1)) (fun k => val_main_v51 (F := Ideal) x0 x1 x5 x6 (ix2 b k)) k := by
  have e52 : ∀ c : Fin 1024, idx_main_v52 (idx_main_v54 (ix2 b c)) = ix2 b 0 := fun c => funext fun a => Fin.ext (by match a with | ⟨0, _⟩ => rfl | ⟨1, _⟩ => rfl)
  have e53 : ∀ c : Fin 1024, idx_main_v53 (idx_main_v56 (ix2 b c)) = ix2 b 1 := fun c => funext fun a => Fin.ext (by match a with | ⟨0, _⟩ => rfl | ⟨1, _⟩ => rfl)
  have e53' : ∀ c : Fin 1024, idx_main_v53 (idx_main_v59 (ix2 b c)) = ix2 b 1 := fun c => funext fun a => Fin.ext (by match a with | ⟨0, _⟩ => rfl | ⟨1, _⟩ => rfl)
  have e52' : ∀ c : Fin 1024, idx_main_v52 (idx_main_v61 (ix2 b c)) = ix2 b 0 := fun c => funext fun a => Fin.ext (by match a with | ⟨0, _⟩ => rfl | ⟨1, _⟩ => rfl)
  unfold val_main_v64
  refine (Cert.GruConcat.concat4_apply _ _ _ _ _ b k).trans ?_
  unfold mix
  split_ifs with h1 h2 h3
  · rw [val_main_v58_apply, val_main_v55_apply, val_main_v57_apply, val_main_v54_apply, val_main_v56_apply,
      val_main_v52_apply, val_main_v53_apply, e52, e53]
    rfl
  · rw [val_main_v63_apply, val_main_v60_apply, val_main_v62_apply, val_main_v59_apply, val_main_v61_apply,
      val_main_v53_apply, val_main_v52_apply, e53', e52']
    rfl
  · rfl
  · rfl

/-- The reference's input-side affine map at row `b`, unit `j`. -/
theorem inputSide_apply (b : Fin 16384) (j : Fin 3072) :
    val_main_v69 (F := Ideal) x0 x1 x2 x3 x4 x5 x6 x7 x9 (ix2 b j)
      = gate (mix (fun k => val_main_v19 (F := Ideal) x0 x2 (ix2 b k)) (fun k => val_main_v26 (F := Ideal) x0 x1 x2 (ix2 b k))
          (fun k => val_main_v33 (F := Ideal) x0 x3 (ix2 b k)) (val_main_v40 (F := Ideal) x0 x4 (ix2 b 0))
          (val_main_v40 (F := Ideal) x0 x4 (ix2 b 1)) (fun k => val_main_v51 (F := Ideal) x0 x1 x5 x6 (ix2 b k))) x7 x9 j := by
  have e1 : ∀ k : Fin 2944, lidx_main_v66 (ix2 b j) k = ix2 b k := fun k => funext fun a => Fin.ext (by match a with | ⟨0, _⟩ => rfl | ⟨1, _⟩ => rfl)
  have e2 : ∀ k : Fin 2944, idx_main_v65 (ridx_main_v66 (ix2 b j) k) = ix2 j k := fun k => funext fun a => Fin.ext (by match a with | ⟨0, _⟩ => rfl | ⟨1, _⟩ => rfl)
  have e3 : idx_main_v67 (idx_main_v68 (ix2 b j)) = ix1 j := funext fun a => Fin.ext (by match a with | ⟨0, _⟩ => rfl)
  rw [val_main_v69_apply, val_main_v66_apply, val_main_v68_apply, val_main_v67_apply]
  unfold gate
  show (∑ k : Fin 2944, _) + x9 _ = (∑ k : Fin 2944, _) + x9 _
  refine congrArg₂ (fun u v : EReal => u + v) (Finset.sum_congr rfl fun k _ => ?_) (congrArg x9 e3)
  rw [val_main_v65_apply]
  exact congrArg₂ (fun u v : EReal => u * v)
    ((congrArg (val_main_v64 (F := Ideal) x0 x1 x2 x3 x4 x5 x6) (e1 k)).trans (input_apply x0 x1 x2 x3 x4 x5 x6 b k))
    (congrArg x7 (e2 k))

/-- The reference's memory-side affine map at row `b`, unit `j`. -/
theorem memorySide_apply (b : Fin 16384) (j : Fin 3072) :
    val_main_v74 (F := Ideal) x0 x2 x8 x10 (ix2 b j)
      = gate (fun k => val_main_v19 (F := Ideal) x0 x2 (ix2 b k)) x8 x10 j := by
  have e1 : ∀ k : Fin 1024, lidx_main_v71 (ix2 b j) k = ix2 b k := fun k => funext fun a => Fin.ext (by match a with | ⟨0, _⟩ => rfl | ⟨1, _⟩ => rfl)
  have e2 : ∀ k : Fin 1024, idx_main_v70 (ridx_main_v71 (ix2 b j) k) = ix2 j k := fun k => funext fun a => Fin.ext (by match a with | ⟨0, _⟩ => rfl | ⟨1, _⟩ => rfl)
  have e3 : idx_main_v72 (idx_main_v73 (ix2 b j)) = ix1 j := funext fun a => Fin.ext (by match a with | ⟨0, _⟩ => rfl)
  rw [val_main_v74_apply, val_main_v71_apply, val_main_v73_apply, val_main_v72_apply]
  unfold gate
  show (∑ k : Fin 1024, _) + x10 _ = (∑ k : Fin 1024, _) + x10 _
  refine congrArg₂ (fun u v : EReal => u + v) (Finset.sum_congr rfl fun k _ => ?_) (congrArg x10 e3)
  rw [val_main_v70_apply]
  exact congrArg₂ (fun u v : EReal => u * v) (congrArg (val_main_v19 (F := Ideal) x0 x2) (e1 k)) (congrArg x8 (e2 k))

/-- The gates and the blend, spelled as the reference spells them (the logistic function as a quotient), are the cell's. -/
theorem blend_spelled (I H : Fin 3072 → EReal) (s : Fin 1024 → EReal) (q : Fin 1024) :
    (one - Ideal.div one (one + Ideal.exp (-(I (bandZ q) + H (bandZ q)))))
        * Ideal.tanh (I (bandN q) + Ideal.div one (one + Ideal.exp (-(I (bandR q) + H (bandR q)))) * H (bandN q))
      + Ideal.div one (one + Ideal.exp (-(I (bandZ q) + H (bandZ q)))) * s q
      = blend I H s q := by
  unfold blend
  rw [logistic_spelled, logistic_spelled]

/-- THE REFERENCE'S RESULT at row `b`, column `q`. -/
theorem result_apply (b : Fin 16384) (q : Fin 1024) :
    val_main_v102 (F := Ideal) x0 x1 x2 x3 x4 x5 x6 x7 x8 x9 x10 (ix2 b q)
      = cell (fun k => val_main_v19 (F := Ideal) x0 x2 (ix2 b k)) (fun k => val_main_v26 (F := Ideal) x0 x1 x2 (ix2 b k))
          (fun k => val_main_v33 (F := Ideal) x0 x3 (ix2 b k)) (val_main_v40 (F := Ideal) x0 x4 (ix2 b 0))
          (val_main_v40 (F := Ideal) x0 x4 (ix2 b 1)) (fun k => val_main_v51 (F := Ideal) x0 x1 x5 x6 (ix2 b k)) x7 x8 x9 x10 q := by
  have eR : idx_main_v75 (ix2 b q) = ix2 b (bandR q) := funext fun a => Fin.ext (by match a with | ⟨0, _⟩ => rfl | ⟨1, _⟩ => rfl)
  have eZ : idx_main_v76 (ix2 b q) = ix2 b (bandZ q) := funext fun a => Fin.ext
    (by match a with | ⟨0, _⟩ => rfl | ⟨1, _⟩ => show 1024 + q.val = q.val + 1024; omega)
  have eN : idx_main_v77 (ix2 b q) = ix2 b (bandN q) := funext fun a => Fin.ext
    (by match a with | ⟨0, _⟩ => rfl | ⟨1, _⟩ => show 2048 + q.val = q.val + 2048; omega)
  have eR' : idx_main_v78 (ix2 b q) = ix2 b (bandR q) := funext fun a => Fin.ext (by match a with | ⟨0, _⟩ => rfl | ⟨1, _⟩ => rfl)
  have eZ' : idx_main_v79 (ix2 b q) = ix2 b (bandZ q) := funext fun a => Fin.ext
    (by match a with | ⟨0, _⟩ => rfl | ⟨1, _⟩ => show 1024 + q.val = q.val + 1024; omega)
  have eN' : idx_main_v80 (ix2 b q) = ix2 b (bandN q) := funext fun a => Fin.ext
    (by match a with | ⟨0, _⟩ => rfl | ⟨1, _⟩ => show 2048 + q.val = q.val + 2048; omega)
  have hIr := (congrArg (val_main_v69 (F := Ideal) x0 x1 x2 x3 x4 x5 x6 x7 x9) eR).trans (inputSide_apply x0 x1 x2 x3 x4 x5 x6 x7 x9 b (bandR q))
  have hIz := (congrArg (val_main_v69 (F := Ideal) x0 x1 x2 x3 x4 x5 x6 x7 x9) eZ).trans (inputSide_apply x0 x1 x2 x3 x4 x5 x6 x7 x9 b (bandZ q))
  have hIn := (congrArg (val_main_v69 (F := Ideal) x0 x1 x2 x3 x4 x5 x6 x7 x9) eN).trans (inputSide_apply x0 x1 x2 x3 x4 x5 x6 x7 x9 b (bandN q))
  have hHr := (congrArg (val_main_v74 (F := Ideal) x0 x2 x8 x10) eR').trans (memorySide_apply x0 x2 x8 x10 b (bandR q))
  have hHz := (congrArg (val_main_v74 (F := Ideal) x0 x2 x8 x10) eZ').trans (memorySide_apply x0 x2 x8 x10 b (bandZ q))
  have hHn := (congrArg (val_main_v74 (F := Ideal) x0 x2 x8 x10) eN').trans (memorySide_apply x0 x2 x8 x10 b (bandN q))
  unfold cell
  rw [← blend_spelled]
  rw [val_main_v102_apply, val_main_v100_apply, val_main_v101_apply, val_main_v99_apply, val_main_v98_apply,
    val_main_v97_apply, val_main_v96_apply, val_main_v95_apply, val_main_v94_apply, val_main_v93_apply,
    val_main_v92_apply, val_main_v91_apply, val_main_v90_apply, val_main_v89_apply, val_main_v88_apply,
    val_main_v87_apply, val_main_v86_apply, val_main_v85_apply, val_main_v84_apply, val_main_v83_apply,
    val_main_v82_apply, val_main_v81_apply, val_main_v80_apply, val_main_v79_apply, val_main_v78_apply,
    val_main_v77_apply, val_main_v76_apply, val_main_v75_apply, hIr, hIz, hIn, hHr, hHz, hHn]
  rfl

end Cert.ReferenceIdeal.RefValue

end
-- ==== Proof.Bridge.lean ====
/-
  The two sides meet: the kernel's result array, the cell of each row of the arrays its launch finds, is the reference's
  result, the cell of each row of the reference's gathered arrays, because those arrays are the same stages of the
  same arguments. No algebraic law is needed: both sides are the same function, entry by entry.
-/
import proofs.«101594_j59201829208560_1_alg».proof.Proof.KernelValue
import proofs.«101594_j59201829208560_1_alg».proof.Proof.HostSide
import proofs.«101594_j59201829208560_1_alg».proof.Proof.RefValue

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.GenP Cert.KernelIdeal.Hand Cert.KernelIdeal.HostSide

variable (m : (ℓ : Loc nD τ sig) → Buf (Elt Ideal) ℓ)

/-- The kernel's result array is the reference's last stage of the same arguments. -/
theorem result_eq (c : Dev nD) :
    result m c = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  have hi : i = ix2 (rowOf i) (colOf i) := funext fun a => Fin.ext (by match a with | ⟨0, _⟩ => rfl | ⟨1, _⟩ => rfl)
  refine Eq.trans ?_ ((congrArg (Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) hi).trans
    (Cert.ReferenceIdeal.RefValue.result_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf i) (colOf i))).symm
  show cellAt m c (rowOf i) (colOf i) = _
  unfold cellAt
  exact cell_congr (colOf i)
    (congrArg (fun (X : S16384x1024.Idx → EReal) => fun k : Fin 1024 => X (ix2 (rowOf i) k)) (src_eq m c))
    (congrArg (fun (X : S16384x1024.Idx → EReal) => fun k : Fin 1024 => X (ix2 (rowOf i) k)) (dst_eq m c))
    (congrArg (fun (X : S16384x768.Idx → EReal) => fun k : Fin 768 => X (ix2 (rowOf i) k)) (msg_eq m c))
    (congrArg (fun (X : S16384x2.Idx → EReal) => X (ix2 (rowOf i) 0)) (dir_eq m c))
    (congrArg (fun (X : S16384x2.Idx → EReal) => X (ix2 (rowOf i) 1)) (dir_eq m c))
    (congrArg (fun (X : S16384x128.Idx → EReal) => fun k : Fin 128 => X (ix2 (rowOf i) k)) (time_eq m c))
    (wih_eq m c) (whh_eq m c) (V_main_arg9 m c) (V_main_arg10 m c)

end Cert.KernelIdeal.Bridge

end
-- ==== Proof.lean ====
/-
  One step of a temporal graph memory: for each of 16384 batch entries, gather the node's memory row, its
  neighbour's memory row, its raw message and its two direction weights, encode the elapsed time by a cosine, and
  update the node's memory by a gated recurrent cell (Spec.lean states the cell). Returned beside the new memory: the
  gathered time of last update, an integer array.

  The kernel's program does the gathers and the time encoding on the host and the cell inside one kernel launch over
  128 blocks of 128 rows; the reference does everything on the host. Over the extended reals the two are the same
  function of the arguments, entry by entry:
    * the arrays the launch finds are the reference's stages of the same arguments (HostSide.lean);
    * the launch leaves, at row `b`, column `q` of the result, the cell of row `b` of those arrays
      (KernelPayload.lean: the body's matrix products and concatenation read at an index; KernelValue.lean: blocks to array);
    * the reference's last stage at `(b, q)` is the cell of row `b` of its gathered arrays (RefValue.lean), the
      logistic function spelled as `1 / (1 + exp (−x))`, the weights transposed before the product;
    * the integer result is written by the same host operations on both sides.
  Both sides sum the same products in the same order, so no law of the extended reals beyond the definitions is used
  and the finiteness of the inputs is never opened.

  The frames of the two kernel programs are their frame certificates; the reference's frame is its run with the
  results dropped. Reading the kernel over the extended reals rewrote none of its operations, so the preservation
  conjunct is `True`.
-/
import proofs.«101594_j59201829208560_1_alg».proof.Defs
import proofs.«101594_j59201829208560_1_alg».proof.Proof.Gen.Kernel
import proofs.«101594_j59201829208560_1_alg».proof.Proof.Gen.KernelIdeal
import proofs.«101594_j59201829208560_1_alg».proof.Proof.Gen.ReferenceIdeal
import proofs.«101594_j59201829208560_1_alg».proof.Proof.Gen.ReferenceIdeal.Run
import proofs.«101594_j59201829208560_1_alg».proof.Proof.Gen.ReferenceIdeal.Read
import proofs.«101594_j59201829208560_1_alg».proof.Proof.Gen.Pre_finite_inputs
import proofs.«101594_j59201829208560_1_alg».proof.Proof.KernelFrameP
import proofs.«101594_j59201829208560_1_alg».proof.Proof.KernelIdealFrameP
import proofs.«101594_j59201829208560_1_alg».proof.Proof.KernelValue
import proofs.«101594_j59201829208560_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as they were. -/
theorem frame_k : Cert.frame_Kernel := fun m ρ _ => Cert.Kernel.GenP.frame m ρ

/-- So does the kernel program read over the extended reals. -/
theorem frame_ki : Cert.frame_KernelIdeal := fun m ρ _ => Cert.KernelIdeal.GenP.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the new memory at the cell of each row of the
    gathered arrays and the integer result at the gathered time of last update. -/
theorem algebraic : Cert.algebraic_KernelIdeal_ReferenceIdeal := by
  intro m ρ m' ρ' _ hagree
  refine ⟨fun c => Cert.KernelIdeal.Hand.result m c, fun c => Cert.KernelIdeal.GenP.V m c Cert.KernelIdeal.main_v8,
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v102_eq, h0, h1, h2, h3, h4, h5, h6, h7, h8, h9, h10]
    exact (Cert.KernelIdeal.Bridge.result_eq m c).symm
  · obtain ⟨h0, h1, -⟩ := hagree c
    rw [Cert.ReferenceIdeal.Read.val_main_v8_eq, h0, h1]
    exact (Cert.KernelIdeal.HostSide.upd_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
